-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S1600000x128 : Shape := ⟨2, ![1600000, 128]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 64
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1x128, .f32⟩
  | .hbm, ⟨34, _⟩ => ⟨S1x64, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S1x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_c_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_10 : BitVec 32 := 0#32
  let v22 : BitVec 1 := Scalar.cmpi .ne v21 c0_i32_10
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S5000x1_S5000x64 : S5000x1.Broadcasts S5000x64
  broadcasts_S1x64_S5000x64 : S1x64.Broadcasts S5000x64
  reduces_S5000x64_S64 : S5000x64.Reduces [0] S64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S64, .f32⟩
  | .hbm, ⟨82, _⟩ => ⟨S1x64, .f32⟩
  | .hbm, ⟨83, _⟩ => ⟨S_, .f32⟩
  | .hbm, ⟨84, _⟩ => ⟨S1x64, .f32⟩
  | .hbm, ⟨85, _⟩ => ⟨S1x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Bits.Tile0.lean ====
/- Region 0 of the program: the first dense transform, one tile of 5000 node rows per grid point.
   The tile's body reads the feature block, the column of source scalings and the whole first weight matrix,
   and stores the product of the scaled block with the weights over the whole output block. Stated here, at
   any contents of the buffers on entry: each window's block at a grid point, what the body leaves in the
   output block as a function of the three input blocks, the body's triple, and the pipeline's proof data
   with its body obligation at every point (the invariant carries nothing between points). -/
import proofs.«146874_j75788992905450_1_alg».proof.Proof.Gen.Kernel.Launch
import proofs.«146874_j75788992905450_1_alg».proof.Proof.Gen.Kernel.Skeleton
import proofs.«146874_j75788992905450_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of the first transform at grid point `t`, read off the window's array on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not (the weights are fetched once:
    their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-- The whole of a 5000×128 block, of a 5000×1 column and of a 128×128 matrix. -/
abbrev rTile128 : Rect S5000x128 := Rect.unit (s := S5000x128) ![0, 0] S5000x128.size inb_S5000x128_S5000x128_0_0
abbrev rCol : Rect S5000x1 := Rect.unit (s := S5000x1) ![0, 0] S5000x1.size inb_S5000x1_S5000x1_0_0
abbrev rW1 : Rect S128x128 := Rect.unit (s := S128x128) ![0, 0] S128x128.size inb_S128x128_S128x128_0_0

/-- What the body leaves in the output block: its one store, over the whole block, of the scaled block times the weights. -/
def out0_3 (x0 : Vec F S5000x128 .f32) (x1 : Vec F S5000x1 .f32) (x2 : Vec F S128x128 .f32) : Vec F S5000x128 .f32 :=
  View.canon [⟨rTile128, k0_pay1 (View.ld x0 rTile128) (View.ld x1 rCol) (View.ld x2 rW1)⟩]

/-- The one store covers the block. -/
theorem cover0_3 (p0 : Vec F S5000x128 .f32) (y : S5000x128.Idx) :
    ∃ pc ∈ ([⟨rTile128, p0⟩] : List (View.Piece (Elt F) S5000x128 .f32)), y ∈ pc.1.set :=
  View.cover_of_tiled [⟨rTile128, p0⟩] S5000x128.size (by rfl) y

set_option maxHeartbeats 1000000 in
/-- The body's triple: on whole staging buffers, the inputs at their contents and the output at anything, it runs
    to the inputs unchanged and the output at `out0_3` of them. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__pre_transform_kernel i arg1 harg1 arg2 harg2 arg3 harg3 arg4 harg4) K := by
  simp only [cc0__pre_transform_kernel_eq_skeleton]; unfold cc0__pre_transform_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

section
variable (V : (c : Dev nD) → (b : Ref sig .tc) → Buf (Elt F) ((c : Thread nD τ).loc b))

/-- The first transform's proof data on core `c`: the arrays as found on entry; after the body at point `t` each input's
    buffer at its block and the output's at `out0_3` of the three blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Tiles

end
-- ==== Proof.Bits.Tile1.lean ====
/- Region 1 of the program: the first layer's closing affine map and rectifier fused with the second dense transform,
   one tile of 5000 node rows per grid point. The tile's body reads the aggregated block, the columns of destination
   and source scalings, the first bias row and the whole second weight matrix, and stores over the whole output block
   the product of (the rectified affine image of the block, scaled by source) with the weights. Stated here, at any
   contents of the buffers on entry: the blocks, what the body leaves in the output block, the body's triple, and the
   pipeline's proof data with its body obligation (nothing carried between points). -/
import proofs.«146874_j75788992905450_1_alg».proof.Proof.Gen.Kernel.Launch
import proofs.«146874_j75788992905450_1_alg».proof.Proof.Gen.Kernel.Skeleton
import proofs.«146874_j75788992905450_1_alg».proof.Proof.Gen.Kernel.Points
import proofs.«146874_j75788992905450_1_alg».proof.Proof.Bits.Tile0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of the fused transform at grid point `t`, read off the window's array on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-- The whole of a 1×128 row, of a 128×64 matrix and of a 5000×64 block. -/
abbrev rRow128 : Rect S1x128 := Rect.unit (s := S1x128) ![0, 0] S1x128.size inb_S1x128_S1x128_0_0
abbrev rW2 : Rect S128x64 := Rect.unit (s := S128x64) ![0, 0] S128x64.size inb_S128x64_S128x64_0_0
abbrev rTile64 : Rect S5000x64 := Rect.unit (s := S5000x64) ![0, 0] S5000x64.size inb_S5000x64_S5000x64_0_0

/-- What the body leaves in the output block: its one store, over the whole block. -/
def out1_5 (x0 : Vec F S5000x128 .f32) (x1 : Vec F S5000x1 .f32) (x2 : Vec F S1x128 .f32) (x3 : Vec F S5000x1 .f32) (x4 : Vec F S128x64 .f32) : Vec F S5000x64 .f32 :=
  View.canon [⟨rTile64, k1_pay1 (View.ld x0 rTile128) (View.ld x1 rCol) (View.ld x2 rRow128) (View.ld x3 rCol) (View.ld x4 rW2)⟩]

/-- The one store covers the block. -/
theorem cover1_5 (p0 : Vec F S5000x64 .f32) (y : S5000x64.Idx) :
    ∃ pc ∈ ([⟨rTile64, p0⟩] : List (View.Piece (Elt F) S5000x64 .f32)), y ∈ pc.1.set :=
  View.cover_of_tiled [⟨rTile64, p0⟩] S5000x64.size (by rfl) y

set_option maxHeartbeats 1000000 in
/-- The body's triple: on whole staging buffers, the inputs at their contents and the output at anything, it runs
    to the inputs unchanged and the output at `out1_5` of them. -/
theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S5000x1 .f32) (harg4 : arg4.IsWhole)
    (arg5 : Memref sig .tc .vmem S128x64 .f32) (harg5 : arg5.IsWhole) (arg6 : Memref sig .tc .vmem S5000x64 .f32) (harg6 : arg6.IsWhole)
    (x0 : Vec F S5000x128 .f32) (x1 : Vec F S5000x1 .f32) (x2 : Vec F S1x128 .f32) (x3 : Vec F S5000x1 .f32) (x4 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__fuse_post_pre_kernel i arg1 harg1 arg2 harg2 arg3 harg3 arg4 harg4 arg5 harg5 arg6 harg6) K := by
  simp only [cc1__fuse_post_pre_kernel_eq_skeleton]; unfold cc1__fuse_post_pre_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

section
variable (V : (c : Dev nD) → (b : Ref sig .tc) → Buf (Elt F) ((c : Thread nD τ).loc b))

/-- The fused transform's proof data on core `c`: the arrays as found on entry; after the body at point `t` each input's
    buffer at its block and the output's at `out1_5` of the five blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Tiles

end
-- ==== Proof.Bits.Tile2Runs.lean ====
/- Region 2 of the program: the second layer's closing affine map summed over all nodes and scaled to a mean, one tile
   of 5000 node rows per grid point. The tile's body keeps a running 1×64 row of column sums in a scratch buffer of its
   own: at the first point it clears the row, at every point it adds the tile's column sums of (block × destination
   scaling + bias row), and at the last point it stores the row times the reciprocal of the node count into the output.
   Here: the blocks, the two branch conditions in closed form over the grid, where the output window is idle, the
   scoped buffers the body never touches kept apart from the scratch row, and the body's triple in each of the three
   cases of its conditionals, the pieces it leaves in the scratch row and in the output found by running it. -/
import proofs.«146874_j75788992905450_1_alg».proof.Proof.Gen.Kernel.Launch
import proofs.«146874_j75788992905450_1_alg».proof.Proof.Gen.Kernel.Skeleton
import proofs.«146874_j75788992905450_1_alg».proof.Proof.Gen.Kernel.Points
import proofs.«146874_j75788992905450_1_alg».proof.Proof.Bits.Tile1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of the pooling region at grid point `t`, read off the window's array on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's branch conditions, over the grid -/

/-- The first conditional's test (clear the running row): the grid coordinate is zero. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional's test (write the mean out): the grid coordinate is the last. -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the output window is idle and not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the last point it is live. -/
theorem liveAt2_3_C : ∀ t : Fin cfg2.N, ¬cond2_0 (grid2.coords t) → cond2_1 (grid2.coords t) → cfg2.idle 3 (grid2.coords t) = false := by decide +kernel

/-! ## The staging buffers and the scratch row -/

/-- One staging buffer of the output window, through which its contents are stated. -/
abbrev VO2_3 : View sig .tc .vmem S1x64 .f32 := (Memref.whole cc2_stg3_0 : Memref sig .tc .vmem S1x64 .f32).view
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
/-- The scratch row: a whole scoped buffer of the kernel's own, passed beside the windows. -/
abbrev scM2_0 : Memref sig .tc .vmem S1x64 .f32 := Memref.whole cc2_scratch0
abbrev VS2_0 : View sig .tc .vmem S1x64 .f32 := scM2_0.view

/-- The scoped buffers this region never touches (the other two regions' staging buffers), each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The region's plain invariant with the scratch row set apart from the untouched scoped buffers. -/
theorem PhiA2_eq (c : Dev nD) :
    (Pipeline.ΦA spec2 c : sProp 𝕄)
      = iprop(iprop(others2 c ∗ (∃ d, owns (c : Thread nD τ) scM2_0 fullShare d)) ∗ (∃ r, prngReg c r)) := by
  unfold Pipeline.ΦA; rw [scopedRest2_eq]; simp only [scM2_0, owns_whole]
  unfold others2
  refine BI.equiv_iff.mp ⟨?_, ?_⟩
  · show (_ : sProp 𝕄) ⊢ _
    iintro ⟨⟨H1, H2, H3, H4, H5, H6, H7, H8, H9, H10, H11, H12, H13, H14, H15, H16, H17, HS⟩, Hg⟩
    isplitr [Hg]
    · isplitr [HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
      · iexact HS
    · iexact Hg
  · show (_ : sProp 𝕄) ⊢ _
    iintro ⟨⟨⟨H1, H2, H3, H4, H5, H6, H7, H8, H9, H10, H11, H12, H13, H14, H15, H16, H17⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact HS
    · iexact Hg

/-! ## The body in each case of its conditionals -/

set_option maxHeartbeats 1000000 in
/-- FIRST POINT (the row is cleared, the output left alone): on whole staging buffers, the inputs at their contents, the
    idle output at contents handed back untouched, the scratch row at anything, the body runs to the inputs and the
    output as they were and the scratch row with the found pieces written. -/
noncomputable def kernelRun2_A (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S5000x64 .f32) (x1 : Vec F S5000x1 .f32) (x2 : Vec F S1x64 .f32) :
    Σ' (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__post_meanpool_kernel i arg1 harg1 arg2 harg2 arg3 harg3 arg4 harg4 arg5 harg5) K } := by
  refine ⟨[], ?_, fun xi3 E K => ?run⟩
  case run =>
    simp only [cc2__post_meanpool_kernel_eq_skeleton]; unfold cc2__post_meanpool_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- MIDDLE POINTS (neither conditional taken): as above, the scratch row entering at the contents the point before left. -/
noncomputable def kernelRun2_B (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S5000x64 .f32) (x1 : Vec F S5000x1 .f32) (x2 : Vec F S1x64 .f32) (xs0 : Vec F S1x64 .f32) :
    Σ' (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__post_meanpool_kernel i arg1 harg1 arg2 harg2 arg3 harg3 arg4 harg4 arg5 harg5) K } := by
  refine ⟨[], ?_, fun xi3 E K => ?run⟩
  case run =>
    simp only [cc2__post_meanpool_kernel_eq_skeleton]; unfold cc2__post_meanpool_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- LAST POINT (the mean is written out): the output at anything ends with its found pieces written, the scratch row
    enters at the contents the point before left and ends with its found pieces written. -/
noncomputable def kernelRun2_C (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S5000x64 .f32) (x1 : Vec F S5000x1 .f32) (x2 : Vec F S1x64 .f32) (xs0 : Vec F S1x64 .f32) :
    Σ' (L3 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2__post_meanpool_kernel i arg1 harg1 arg2 harg2 arg3 harg3 arg4 harg4 arg5 harg5) K } := by
  refine ⟨?_, ?_, fun E K => ?run⟩
  case run =>
    simp only [cc2__post_meanpool_kernel_eq_skeleton]; unfold cc2__post_meanpool_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Tiles

end
-- ==== Proof.Bits.Tile2.lean ====
/- Region 2, continued: what each case of the body leaves in the output block and in the running row (its found pieces
   read back; they cover the 1×64 row), what the two hold after each grid point (the first point's case from the
   input blocks alone, every later point's from the input blocks and the row the point before left), the region's
   invariant (before the first point the plain one; afterwards the untouched scoped buffers beside the running row at
   what the point before left), the pipeline's proof data and its body obligation at every point. -/
import proofs.«146874_j75788992905450_1_alg».proof.Proof.Gen.Kernel.Launch
import proofs.«146874_j75788992905450_1_alg».proof.Proof.Gen.Kernel.Skeleton
import proofs.«146874_j75788992905450_1_alg».proof.Proof.Gen.Kernel.Points
import proofs.«146874_j75788992905450_1_alg».proof.Proof.Bits.Tile2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- First point: nothing stored into the (idle) output — a placeholder nothing consults. -/
def out2_A_3 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S5000x64 .f32) (x1 : Vec F S5000x1 .f32) (x2 : Vec F S1x64 .f32) : Vec F S1x64 .f32 :=
  VO2_3.read (Elt F) (VO2_3.writes (Elt F) VO2_3.junk (kernelRun2_A c i arg1 harg1 arg2 harg2 arg3 harg3 arg4 harg4 arg5 harg5 hc0 hc1 x0 x1 x2).1)

/-- First point: the pieces stored into the running row cover it. -/
theorem scover2_A_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S5000x64 .f32) (x1 : Vec F S5000x1 .f32) (x2 : Vec F S1x64 .f32) (y : S1x64.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S1x64.size (by sl_kernel_rfl) y

/-- First point: what the running row holds afterwards. -/
def sout2_A_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S5000x64 .f32) (x1 : Vec F S5000x1 .f32) (x2 : Vec F S1x64 .f32) : Vec F S1x64 .f32 :=
  VS2_0.read (Elt F) (VS2_0.writes (Elt F) VS2_0.junk (kernelRun2_A c i arg1 harg1 arg2 harg2 arg3 harg3 arg4 harg4 arg5 harg5 hc0 hc1 x0 x1 x2).2.1)

/-- Middle points: nothing stored into the (idle) output. -/
def out2_B_3 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S5000x64 .f32) (x1 : Vec F S5000x1 .f32) (x2 : Vec F S1x64 .f32) (xs0 : Vec F S1x64 .f32) : Vec F S1x64 .f32 :=
  VO2_3.read (Elt F) (VO2_3.writes (Elt F) VO2_3.junk (kernelRun2_B c i arg1 harg1 arg2 harg2 arg3 harg3 arg4 harg4 arg5 harg5 hc0 hc1 x0 x1 x2 xs0).1)

theorem scover2_B_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S5000x64 .f32) (x1 : Vec F S5000x1 .f32) (x2 : Vec F S1x64 .f32) (xs0 : Vec F S1x64 .f32) (y : S1x64.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S1x64.size (by sl_kernel_rfl) y

/-- Middle points: what the running row holds afterwards. -/
def sout2_B_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S5000x64 .f32) (x1 : Vec F S5000x1 .f32) (x2 : Vec F S1x64 .f32) (xs0 : Vec F S1x64 .f32) : Vec F S1x64 .f32 :=
  VS2_0.read (Elt F) (VS2_0.writes (Elt F) VS2_0.junk (kernelRun2_B c i arg1 harg1 arg2 harg2 arg3 harg3 arg4 harg4 arg5 harg5 hc0 hc1 x0 x1 x2 xs0).2.1)

/-- Last point: the pieces stored into the output block cover it. -/
theorem cover2_C_3 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S5000x64 .f32) (x1 : Vec F S5000x1 .f32) (x2 : Vec F S1x64 .f32) (xs0 : Vec F S1x64 .f32) (y : S1x64.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1x64.size (by sl_kernel_rfl) y

/-- Last point: what the output block holds afterwards. -/
def out2_C_3 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S5000x64 .f32) (x1 : Vec F S5000x1 .f32) (x2 : Vec F S1x64 .f32) (xs0 : Vec F S1x64 .f32) : Vec F S1x64 .f32 :=
  VO2_3.read (Elt F) (VO2_3.writes (Elt F) VO2_3.junk (kernelRun2_C c i arg1 harg1 arg2 harg2 arg3 harg3 arg4 harg4 arg5 harg5 hc0 hc1 x0 x1 x2 xs0).1)

theorem scover2_C_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S5000x64 .f32) (x1 : Vec F S5000x1 .f32) (x2 : Vec F S1x64 .f32) (xs0 : Vec F S1x64 .f32) (y : S1x64.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S1x64.size (by sl_kernel_rfl) y

/-- Last point: what the running row holds afterwards. -/
def sout2_C_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S5000x64 .f32) (x1 : Vec F S5000x1 .f32) (x2 : Vec F S1x64 .f32) (xs0 : Vec F S1x64 .f32) : Vec F S1x64 .f32 :=
  VS2_0.read (Elt F) (VS2_0.writes (Elt F) VS2_0.junk (kernelRun2_C c i arg1 harg1 arg2 harg2 arg3 harg3 arg4 harg4 arg5 harg5 hc0 hc1 x0 x1 x2 xs0).2.1)

section
variable (V : (c : Dev nD) → (b : Ref sig .tc) → Buf (Elt F) ((c : Thread nD τ).loc b))

/-! ## What the output block and the running row hold after each point -/

/-- THE ACCUMULATION: the pair (output block, running row) after the body at position `n`: the case the closed forms
    select at `n`, run on the point's input blocks, the running row entering at what position `n - 1` left. -/
def outsAt2 (c : Dev nD) : (n : ℕ) → n < cfg2.N → Vec F S1x64 .f32 × Vec F S1x64 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 20 = 0 then
      False.elim (by have hN : n + 1 < 20 := lt_of_lt_of_eq hn (show cfg2.N = 20 from N_2); omega)
    else
      if h1 : (n + 1) % 20 = 19 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- At the first point: the clearing case's contents. -/
theorem outsAt2_A (c : Dev nD) (t : Fin cfg2.N) (h0 : t.val % 20 = 0) (h1 : ¬t.val % 20 = 19) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
      sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (by exfalso; have hN : n + 1 < 20 := lt_of_lt_of_eq hn (show cfg2.N = 20 from N_2); (try dsimp only at h0); omega)

/-- At a middle point: the plain case's contents, over the row the point before left. -/
theorem outsAt2_B (c : Dev nD) (t : Fin cfg2.N) (h0 : ¬t.val % 20 = 0) (h1 : ¬t.val % 20 = 19) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point: the writing-out case's contents, over the row the point before left. -/
theorem outsAt2_C (c : Dev nD) (t : Fin cfg2.N) (h0 : ¬t.val % 20 = 0) (h1 : t.val % 20 = 19) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one (every scoped buffer that is no
    staging buffer of this region at anything, the generator register at some state); afterwards the untouched scoped
    buffers, the running row at what the point before left in it, and the generator register at some state. -/
def PhiS (c : Dev nD) : (n : ℕ) → n ≤ cfg2.N → sProp 𝕄
  | 0, _ => Pipeline.ΦA spec2 c
  | n + 1, hn => iprop(iprop(others2 c ∗ owns (c : Thread nD τ) scM2_0 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(others2 c ∗ owns (c : Thread nD τ) scM2_0 fullShare ((outsAt2 V c n hn).2)) ∗ (∃ r, prngReg c r)) := rfl

theorem PhiS_pos (c : Dev nD) (n : ℕ) (h : n ≤ cfg2.N) (hz : n ≠ 0) :
    PhiS V c n h = iprop(iprop(others2 c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The pooling region's proof data on core `c`: the arrays as found on entry; after the body at point `t` each input's
    buffer at its block and the output's at the accumulation's first component; the invariant `PhiS`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the closed forms say which case the point is in; the
    invariant hands the body the running row at what the point before left (at anything at the first point) and takes
    it back at this point's contents; the idle output is handed back untouched away from the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 20 := lt_of_lt_of_eq t.isLt (show cfg2.N = 20 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 20 = 0
  · by_cases h1 : t.val % 20 = 19
    · exfalso; omega
    · rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      have hz : t.val = 0 := by omega
      rw [PhiS_castSucc V c t, PhiS_zero V c _ _ hz, PhiA2_eq]
      iintro ⟨⟨⟨Hoth, HS0⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 20 = 19
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The plain invariant is the tracked one before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the tracked invariant gives the plain one back: the row's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨Hoth, HS0⟩, Hg⟩
  isplitl [HS0 Hoth]
  · isplitl [Hoth]; · iexact Hoth
    iexists _; iexact HS0
  iexact Hg

theorem hout2 (c : Dev nD) : (dat2 V c).Φ (Fin.last cfg2.N) ⊢ Pipeline.ΦA spec2 c :=
  Phi_out2 V c _ (by rw [Fin.val_last]; have : cfg2.N = 20 := N_2; omega)

end

end Cert.Kernel.Tiles

end
-- ==== Proof.Bits.Run.lean ====
/- The run of the whole program: its ten items in order — five stretches of host operations (the two degree counts and
   their scalings, the bias rows), the first dense transform, the first gather and aggregation, the fused transform,
   the second gather and aggregation, the pooling region. The buffers' contents at each of the eleven boundaries are a
   fold from the launch memory: a host stretch applies its operations; a region leaves each of its windows' arrays at
   what the pipeline's write-backs make of it and every other buffer as entered. No item writes an argument array, so
   each is read back through the fold to its launch contents. Every weakly fair execution terminates with every
   unscoped buffer at the last boundary's contents; the frame claim and the result's contents are read off that. -/
import proofs.«146874_j75788992905450_1_alg».proof.Proof.Gen.Kernel.Launch
import proofs.«146874_j75788992905450_1_alg».proof.Proof.Gen.Kernel.Skeleton
import proofs.«146874_j75788992905450_1_alg».proof.Proof.Gen.Kernel.Points
import proofs.«146874_j75788992905450_1_alg».proof.Proof.Bits.Tile2
import proofs.«146874_j75788992905450_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- The same read at the TensorCore's references: what the first transform is entered from. -/
abbrev E5 : (c : Dev nD) → (b : Ref sig .tc) → Buf (Elt F) ((c : Thread nD τ).loc b) := fun c b => W5 m ρ c b
/-- At region 0's exit: its arrays at what the pipeline leaves, every other buffer as entered. -/
def W6 (c : Dev nD) : Valuation τ sig (Elt F) :=
  Pipeline.withArrays spec0 c (W5 m ρ c) fun w => (dat0 (E5 m ρ) c).arrAt w cfg0.N
theorem W6_arr (c : Dev nD) (w : Fin cfg0.W) :
    W6 m ρ c (Proc.devRef .tc (Pipeline.arrRef spec0 w)) = (dat0 (E5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev E6 : (c : Dev nD) → (b : Ref sig .tc) → Buf (Elt F) ((c : Thread nD τ).loc b) := fun c b => W6 m ρ c b
theorem hF0 (c : Dev nD) (w : Fin cfg0.W) : (dat0 (E5 m ρ) c).arrAt w cfg0.N = E6 m ρ c (Pipeline.arrRef spec0 w) :=
  (W6_arr m ρ c w).symm
theorem hrest0 (c : Dev nD) : ∀ b, b ∉ Finset.univ.image (Pipeline.arrRef spec0) → E6 m ρ c b = E5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
abbrev E7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (E7 m ρ) c).arrAt w cfg1.N
theorem W8_arr (c : Dev nD) (w : Fin cfg1.W) :
    W8 m ρ c (Proc.devRef .tc (Pipeline.arrRef spec1 w)) = (dat1 (E7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev E8 : (c : Dev nD) → (b : Ref sig .tc) → Buf (Elt F) ((c : Thread nD τ).loc b) := fun c b => W8 m ρ c b
theorem hF1 (c : Dev nD) (w : Fin cfg1.W) : (dat1 (E7 m ρ) c).arrAt w cfg1.N = E8 m ρ c (Pipeline.arrRef spec1 w) :=
  (W8_arr m ρ c w).symm
theorem hrest1 (c : Dev nD) : ∀ b, b ∉ Finset.univ.image (Pipeline.arrRef spec1) → E8 m ρ c b = E7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev E9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (E9 m ρ) c).arrAt w cfg2.N
theorem W10_arr (c : Dev nD) (w : Fin cfg2.W) :
    W10 m ρ c (Proc.devRef .tc (Pipeline.arrRef spec2 w)) = (dat2 (E9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev E10 : (c : Dev nD) → (b : Ref sig .tc) → Buf (Elt F) ((c : Thread nD τ).loc b) := fun c b => W10 m ρ c b
theorem hF2 (c : Dev nD) (w : Fin cfg2.W) : (dat2 (E9 m ρ) c).arrAt w cfg2.N = E10 m ρ c (Pipeline.arrRef spec2 w) :=
  (W10_arr m ρ c w).symm
theorem hrest2 (c : Dev nD) : ∀ b, b ∉ Finset.univ.image (Pipeline.arrRef spec2) → E10 m ρ c b = E9 m ρ c b :=
  fun b hb => W10_of_ne m ρ c b fun w e => hb (Finset.mem_image.mpr ⟨w, Finset.mem_univ _, e⟩)

/-! ## A buffer no operation of a stretch writes keeps its contents over the stretch -/

theorem W1_keep (c : Dev nD) (r : Ref sig .tc) (h : r ∉ hostOps0_W) : W1 m ρ c r = W0 m ρ c r :=
  StableHlo.after_of_writes_sub hostOps0 _ hostOps0_writes h
theorem W2_keep (c : Dev nD) (r : Ref sig .tc) (h : r ∉ hostOps0_1_W) : W2 m ρ c r = W1 m ρ c r :=
  StableHlo.after_of_writes_sub hostOps0_1 _ hostOps0_1_writes h
theorem W3_keep (c : Dev nD) (r : Ref sig .tc) (h : r ∉ hostOps0_2_W) : W3 m ρ c r = W2 m ρ c r :=
  StableHlo.after_of_writes_sub hostOps0_2 _ hostOps0_2_writes h
theorem W4_keep (c : Dev nD) (r : Ref sig .tc) (h : r ∉ hostOps0_3_W) : W4 m ρ c r = W3 m ρ c r :=
  StableHlo.after_of_writes_sub hostOps0_3 _ hostOps0_3_writes h
theorem W5_keep (c : Dev nD) (r : Ref sig .tc) (h : r ∉ hostOps0_4_W) : W5 m ρ c r = W4 m ρ c r :=
  StableHlo.after_of_writes_sub hostOps0_4 _ hostOps0_4_writes h
theorem W7_keep (c : Dev nD) (r : Ref sig .tc) (h : r ∉ hostOps1_W) : W7 m ρ c r = W6 m ρ c r :=
  StableHlo.after_of_writes_sub hostOps1 _ hostOps1_writes h
theorem W9_keep (c : Dev nD) (r : Ref sig .tc) (h : r ∉ hostOps2_W) : W9 m ρ c r = W8 m ρ c r :=
  StableHlo.after_of_writes_sub hostOps2 _ hostOps2_writes h

/-! ## The arguments end as launched -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := (W6_arr m ρ c 0).trans (((dat0 (E5 m ρ) c).arrAt_in 0 rfl _).trans (A_eq0 (E5 m ρ) c 0))
    _ = W4 m ρ c (Proc.devRef .tc main_arg0) := W5_keep m ρ c main_arg0 (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := W9_keep m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := (W6_arr m ρ c 2).trans (((dat0 (E5 m ρ) c).arrAt_in 2 rfl _).trans (A_eq0 (E5 m ρ) c 2))
    _ = W4 m ρ c (Proc.devRef .tc main_arg3) := W5_keep m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := W9_keep m ρ c main_arg5 (by decide)
    _ = W7 m ρ c (Proc.devRef .tc main_arg5) := (W8_arr m ρ c 4).trans (((dat1 (E7 m ρ) c).arrAt_in 4 rfl _).trans (A_eq1 (E7 m ρ) c 4))
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E5 m ρ) c
  | ⟨1, _⟩ => fun c => dat1 (E7 m ρ) c
  | ⟨2, _⟩ => fun c => dat2 (E9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- REGION 0 over the thread state: entered from every unscoped buffer at `W5`, left at `W6`. Its arrays are split out
    of the unscoped buffers and put back at the exit contents; the generator register goes into the invariant and comes
    back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (E5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E5 m ρ c) (E6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. Its arrays are split out
    of the unscoped buffers and put back at the exit contents; the generator register goes into the invariant and comes
    back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (E7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E7 m ρ c) (E8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W9`, left at `W10`. Its arrays are split out
    of the unscoped buffers and put back at the exit contents; the generator register goes into the invariant and comes
    back; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin2 (E9 m ρ) c)
    unfold Pipeline.ΦA
    show (_ : sProp 𝕄) ⊢ _
    iintro ⟨Hp, -, Hr⟩
    isplitl [Hr]; · iexact Hr
    iexact Hp
  hout c := by
    rw [Pipeline.ownSems0_none]
    refine BI.Entails.trans (hout2 (E9 m ρ) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E9 m ρ c) (E10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ) ]

/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c)⟩) (run_all m ρ)

/-- THE RESULT: the result array ends at what the pooling region's write-backs leave of its output window's array,
    the arguments as launched. -/
theorem run_result : θ_run defs (onTc (τ := τ) (main (F := F))) ⟨m, fun _ => 0, ρ⟩ (fun r => ∀ c : Dev nD,
      r.2.mem ((c.tc : Thread nD τ).loc main_v39) = (dat2 (E9 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v39 (by decide))).trans (W10_arr m ρ c 3),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c)⟩) (run_all m ρ)

end Cert.Kernel.Tiles

end
-- ==== Proof.Ideal.Tile0.lean ====
/- Region 0 of the program: the first dense transform, one tile of 5000 node rows per grid point.
   The tile's body reads the feature block, the column of source scalings and the whole first weight matrix,
   and stores the product of the scaled block with the weights over the whole output block. Stated here, at
   any contents of the buffers on entry: each window's block at a grid point, what the body leaves in the
   output block as a function of the three input blocks, the body's triple, and the pipeline's proof data
   with its body obligation at every point (the invariant carries nothing between points). -/
import proofs.«146874_j75788992905450_1_alg».proof.Proof.Gen.KernelIdeal.Launch
import proofs.«146874_j75788992905450_1_alg».proof.Proof.Gen.KernelIdeal.Skeleton
import proofs.«146874_j75788992905450_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- Window `w`'s block of the first transform at grid point `t`, read off the window's array on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not (the weights are fetched once:
    their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-- The whole of a 5000×128 block, of a 5000×1 column and of a 128×128 matrix. -/
abbrev rTile128 : Rect S5000x128 := Rect.unit (s := S5000x128) ![0, 0] S5000x128.size inb_S5000x128_S5000x128_0_0
abbrev rCol : Rect S5000x1 := Rect.unit (s := S5000x1) ![0, 0] S5000x1.size inb_S5000x1_S5000x1_0_0
abbrev rW1 : Rect S128x128 := Rect.unit (s := S128x128) ![0, 0] S128x128.size inb_S128x128_S128x128_0_0

/-- What the body leaves in the output block: its one store, over the whole block, of the scaled block times the weights. -/
def out0_3 (x0 : Vec F S5000x128 .f32) (x1 : Vec F S5000x1 .f32) (x2 : Vec F S128x128 .f32) : Vec F S5000x128 .f32 :=
  View.canon [⟨rTile128, k0_pay1 (View.ld x0 rTile128) (View.ld x1 rCol) (View.ld x2 rW1)⟩]

/-- The one store covers the block. -/
theorem cover0_3 (p0 : Vec F S5000x128 .f32) (y : S5000x128.Idx) :
    ∃ pc ∈ ([⟨rTile128, p0⟩] : List (View.Piece (Elt F) S5000x128 .f32)), y ∈ pc.1.set :=
  View.cover_of_tiled [⟨rTile128, p0⟩] S5000x128.size (by rfl) y

set_option maxHeartbeats 1000000 in
/-- The body's triple: on whole staging buffers, the inputs at their contents and the output at anything, it runs
    to the inputs unchanged and the output at `out0_3` of them. -/
theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S5000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__pre_transform_kernel i arg1 harg1 arg2 harg2 arg3 harg3 arg4 harg4) K := by
  simp only [cc0__pre_transform_kernel_eq_skeleton]; unfold cc0__pre_transform_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

section
variable (V : (c : Dev nD) → (b : Ref sig .tc) → Buf (Elt F) ((c : Thread nD τ).loc b))

/-- The first transform's proof data on core `c`: the arrays as found on entry; after the body at point `t` each input's
    buffer at its block and the output's at `out0_3` of the three blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Tiles

end
-- ==== Proof.Ideal.Tile1.lean ====
/- Region 1 of the program: the first layer's closing affine map and rectifier fused with the second dense transform,
   one tile of 5000 node rows per grid point. The tile's body reads the aggregated block, the columns of destination
   and source scalings, the first bias row and the whole second weight matrix, and stores over the whole output block
   the product of (the rectified affine image of the block, scaled by source) with the weights. Stated here, at any
   contents of the buffers on entry: the blocks, what the body leaves in the output block, the body's triple, and the
   pipeline's proof data with its body obligation (nothing carried between points). -/
import proofs.«146874_j75788992905450_1_alg».proof.Proof.Gen.KernelIdeal.Launch
import proofs.«146874_j75788992905450_1_alg».proof.Proof.Gen.KernelIdeal.Skeleton
import proofs.«146874_j75788992905450_1_alg».proof.Proof.Gen.KernelIdeal.Points
import proofs.«146874_j75788992905450_1_alg».proof.Proof.Ideal.Tile0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- Window `w`'s block of the fused transform at grid point `t`, read off the window's array on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-- The whole of a 1×128 row, of a 128×64 matrix and of a 5000×64 block. -/
abbrev rRow128 : Rect S1x128 := Rect.unit (s := S1x128) ![0, 0] S1x128.size inb_S1x128_S1x128_0_0
abbrev rW2 : Rect S128x64 := Rect.unit (s := S128x64) ![0, 0] S128x64.size inb_S128x64_S128x64_0_0
abbrev rTile64 : Rect S5000x64 := Rect.unit (s := S5000x64) ![0, 0] S5000x64.size inb_S5000x64_S5000x64_0_0

/-- What the body leaves in the output block: its one store, over the whole block. -/
def out1_5 (x0 : Vec F S5000x128 .f32) (x1 : Vec F S5000x1 .f32) (x2 : Vec F S1x128 .f32) (x3 : Vec F S5000x1 .f32) (x4 : Vec F S128x64 .f32) : Vec F S5000x64 .f32 :=
  View.canon [⟨rTile64, k1_pay1 (View.ld x0 rTile128) (View.ld x1 rCol) (View.ld x2 rRow128) (View.ld x3 rCol) (View.ld x4 rW2)⟩]

/-- The one store covers the block. -/
theorem cover1_5 (p0 : Vec F S5000x64 .f32) (y : S5000x64.Idx) :
    ∃ pc ∈ ([⟨rTile64, p0⟩] : List (View.Piece (Elt F) S5000x64 .f32)), y ∈ pc.1.set :=
  View.cover_of_tiled [⟨rTile64, p0⟩] S5000x64.size (by rfl) y

set_option maxHeartbeats 1000000 in
/-- The body's triple: on whole staging buffers, the inputs at their contents and the output at anything, it runs
    to the inputs unchanged and the output at `out1_5` of them. -/
theorem sound_kernel1 (c : Dev nD) (E : Set ℕ) (i : grid1.Coords)
    (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S5000x1 .f32) (harg4 : arg4.IsWhole)
    (arg5 : Memref sig .tc .vmem S128x64 .f32) (harg5 : arg5.IsWhole) (arg6 : Memref sig .tc .vmem S5000x64 .f32) (harg6 : arg6.IsWhole)
    (x0 : Vec F S5000x128 .f32) (x1 : Vec F S5000x1 .f32) (x2 : Vec F S1x128 .f32) (x3 : Vec F S5000x1 .f32) (x4 : Vec F S128x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__fuse_post_pre_kernel i arg1 harg1 arg2 harg2 arg3 harg3 arg4 harg4 arg5 harg5 arg6 harg6) K := by
  simp only [cc1__fuse_post_pre_kernel_eq_skeleton]; unfold cc1__fuse_post_pre_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

section
variable (V : (c : Dev nD) → (b : Ref sig .tc) → Buf (Elt F) ((c : Thread nD τ).loc b))

/-- The fused transform's proof data on core `c`: the arrays as found on entry; after the body at point `t` each input's
    buffer at its block and the output's at `out1_5` of the five blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Tiles

end
-- ==== Proof.Ideal.Tile2Runs.lean ====
/- Region 2 of the program: the second layer's closing affine map summed over all nodes and scaled to a mean, one tile
   of 5000 node rows per grid point. The tile's body keeps a running 1×64 row of column sums in a scratch buffer of its
   own: at the first point it clears the row, at every point it adds the tile's column sums of (block × destination
   scaling + bias row), and at the last point it stores the row times the reciprocal of the node count into the output.
   Here: the blocks, the two branch conditions in closed form over the grid, where the output window is idle, the
   scoped buffers the body never touches kept apart from the scratch row, and the body's triple in each of the three
   cases of its conditionals, the pieces it leaves in the scratch row and in the output found by running it. -/
import proofs.«146874_j75788992905450_1_alg».proof.Proof.Gen.KernelIdeal.Launch
import proofs.«146874_j75788992905450_1_alg».proof.Proof.Gen.KernelIdeal.Skeleton
import proofs.«146874_j75788992905450_1_alg».proof.Proof.Gen.KernelIdeal.Points
import proofs.«146874_j75788992905450_1_alg».proof.Proof.Ideal.Tile1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- Window `w`'s block of the pooling region at grid point `t`, read off the window's array on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's branch conditions, over the grid -/

/-- The first conditional's test (clear the running row): the grid coordinate is zero. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional's test (write the mean out): the grid coordinate is the last. -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the output window is idle and not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the last point it is live. -/
theorem liveAt2_3_C : ∀ t : Fin cfg2.N, ¬cond2_0 (grid2.coords t) → cond2_1 (grid2.coords t) → cfg2.idle 3 (grid2.coords t) = false := by decide +kernel

/-! ## The staging buffers and the scratch row -/

/-- One staging buffer of the output window, through which its contents are stated. -/
abbrev VO2_3 : View sig .tc .vmem S1x64 .f32 := (Memref.whole cc2_stg3_0 : Memref sig .tc .vmem S1x64 .f32).view
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
/-- The scratch row: a whole scoped buffer of the kernel's own, passed beside the windows. -/
abbrev scM2_0 : Memref sig .tc .vmem S1x64 .f32 := Memref.whole cc2_scratch0
abbrev VS2_0 : View sig .tc .vmem S1x64 .f32 := scM2_0.view

/-- The scoped buffers this region never touches (the other two regions' staging buffers), each whole at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The region's plain invariant with the scratch row set apart from the untouched scoped buffers. -/
theorem PhiA2_eq (c : Dev nD) :
    (Pipeline.ΦA spec2 c : sProp 𝕄)
      = iprop(iprop(others2 c ∗ (∃ d, owns (c : Thread nD τ) scM2_0 fullShare d)) ∗ (∃ r, prngReg c r)) := by
  unfold Pipeline.ΦA; rw [scopedRest2_eq]; simp only [scM2_0, owns_whole]
  unfold others2
  refine BI.equiv_iff.mp ⟨?_, ?_⟩
  · show (_ : sProp 𝕄) ⊢ _
    iintro ⟨⟨H1, H2, H3, H4, H5, H6, H7, H8, H9, H10, H11, H12, H13, H14, H15, H16, H17, HS⟩, Hg⟩
    isplitr [Hg]
    · isplitr [HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
      · iexact HS
    · iexact Hg
  · show (_ : sProp 𝕄) ⊢ _
    iintro ⟨⟨⟨H1, H2, H3, H4, H5, H6, H7, H8, H9, H10, H11, H12, H13, H14, H15, H16, H17⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact HS
    · iexact Hg

/-! ## The body in each case of its conditionals -/

set_option maxHeartbeats 1000000 in
/-- FIRST POINT (the row is cleared, the output left alone): on whole staging buffers, the inputs at their contents, the
    idle output at contents handed back untouched, the scratch row at anything, the body runs to the inputs and the
    output as they were and the scratch row with the found pieces written. -/
noncomputable def kernelRun2_A (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S5000x64 .f32) (x1 : Vec F S5000x1 .f32) (x2 : Vec F S1x64 .f32) :
    Σ' (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__post_meanpool_kernel i arg1 harg1 arg2 harg2 arg3 harg3 arg4 harg4 arg5 harg5) K } := by
  refine ⟨[], ?_, fun xi3 E K => ?run⟩
  case run =>
    simp only [cc2__post_meanpool_kernel_eq_skeleton]; unfold cc2__post_meanpool_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- MIDDLE POINTS (neither conditional taken): as above, the scratch row entering at the contents the point before left. -/
noncomputable def kernelRun2_B (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S5000x64 .f32) (x1 : Vec F S5000x1 .f32) (x2 : Vec F S1x64 .f32) (xs0 : Vec F S1x64 .f32) :
    Σ' (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__post_meanpool_kernel i arg1 harg1 arg2 harg2 arg3 harg3 arg4 harg4 arg5 harg5) K } := by
  refine ⟨[], ?_, fun xi3 E K => ?run⟩
  case run =>
    simp only [cc2__post_meanpool_kernel_eq_skeleton]; unfold cc2__post_meanpool_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- LAST POINT (the mean is written out): the output at anything ends with its found pieces written, the scratch row
    enters at the contents the point before left and ends with its found pieces written. -/
noncomputable def kernelRun2_C (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S5000x64 .f32) (x1 : Vec F S5000x1 .f32) (x2 : Vec F S1x64 .f32) (xs0 : Vec F S1x64 .f32) :
    Σ' (L3 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2__post_meanpool_kernel i arg1 harg1 arg2 harg2 arg3 harg3 arg4 harg4 arg5 harg5) K } := by
  refine ⟨?_, ?_, fun E K => ?run⟩
  case run =>
    simp only [cc2__post_meanpool_kernel_eq_skeleton]; unfold cc2__post_meanpool_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Tiles

end
-- ==== Proof.Ideal.Tile2.lean ====
/- Region 2, continued: what each case of the body leaves in the output block and in the running row (its found pieces
   read back; they cover the 1×64 row), what the two hold after each grid point (the first point's case from the
   input blocks alone, every later point's from the input blocks and the row the point before left), the region's
   invariant (before the first point the plain one; afterwards the untouched scoped buffers beside the running row at
   what the point before left), the pipeline's proof data and its body obligation at every point. -/
import proofs.«146874_j75788992905450_1_alg».proof.Proof.Gen.KernelIdeal.Launch
import proofs.«146874_j75788992905450_1_alg».proof.Proof.Gen.KernelIdeal.Skeleton
import proofs.«146874_j75788992905450_1_alg».proof.Proof.Gen.KernelIdeal.Points
import proofs.«146874_j75788992905450_1_alg».proof.Proof.Ideal.Tile2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- First point: nothing stored into the (idle) output — a placeholder nothing consults. -/
def out2_A_3 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S5000x64 .f32) (x1 : Vec F S5000x1 .f32) (x2 : Vec F S1x64 .f32) : Vec F S1x64 .f32 :=
  VO2_3.read (Elt F) (VO2_3.writes (Elt F) VO2_3.junk (kernelRun2_A c i arg1 harg1 arg2 harg2 arg3 harg3 arg4 harg4 arg5 harg5 hc0 hc1 x0 x1 x2).1)

/-- First point: the pieces stored into the running row cover it. -/
theorem scover2_A_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S5000x64 .f32) (x1 : Vec F S5000x1 .f32) (x2 : Vec F S1x64 .f32) (y : S1x64.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S1x64.size (by sl_kernel_rfl) y

/-- First point: what the running row holds afterwards. -/
def sout2_A_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S5000x64 .f32) (x1 : Vec F S5000x1 .f32) (x2 : Vec F S1x64 .f32) : Vec F S1x64 .f32 :=
  VS2_0.read (Elt F) (VS2_0.writes (Elt F) VS2_0.junk (kernelRun2_A c i arg1 harg1 arg2 harg2 arg3 harg3 arg4 harg4 arg5 harg5 hc0 hc1 x0 x1 x2).2.1)

/-- Middle points: nothing stored into the (idle) output. -/
def out2_B_3 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S5000x64 .f32) (x1 : Vec F S5000x1 .f32) (x2 : Vec F S1x64 .f32) (xs0 : Vec F S1x64 .f32) : Vec F S1x64 .f32 :=
  VO2_3.read (Elt F) (VO2_3.writes (Elt F) VO2_3.junk (kernelRun2_B c i arg1 harg1 arg2 harg2 arg3 harg3 arg4 harg4 arg5 harg5 hc0 hc1 x0 x1 x2 xs0).1)

theorem scover2_B_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S5000x64 .f32) (x1 : Vec F S5000x1 .f32) (x2 : Vec F S1x64 .f32) (xs0 : Vec F S1x64 .f32) (y : S1x64.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S1x64.size (by sl_kernel_rfl) y

/-- Middle points: what the running row holds afterwards. -/
def sout2_B_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S5000x64 .f32) (x1 : Vec F S5000x1 .f32) (x2 : Vec F S1x64 .f32) (xs0 : Vec F S1x64 .f32) : Vec F S1x64 .f32 :=
  VS2_0.read (Elt F) (VS2_0.writes (Elt F) VS2_0.junk (kernelRun2_B c i arg1 harg1 arg2 harg2 arg3 harg3 arg4 harg4 arg5 harg5 hc0 hc1 x0 x1 x2 xs0).2.1)

/-- Last point: the pieces stored into the output block cover it. -/
theorem cover2_C_3 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S5000x64 .f32) (x1 : Vec F S5000x1 .f32) (x2 : Vec F S1x64 .f32) (xs0 : Vec F S1x64 .f32) (y : S1x64.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1x64.size (by sl_kernel_rfl) y

/-- Last point: what the output block holds afterwards. -/
def out2_C_3 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S5000x64 .f32) (x1 : Vec F S5000x1 .f32) (x2 : Vec F S1x64 .f32) (xs0 : Vec F S1x64 .f32) : Vec F S1x64 .f32 :=
  VO2_3.read (Elt F) (VO2_3.writes (Elt F) VO2_3.junk (kernelRun2_C c i arg1 harg1 arg2 harg2 arg3 harg3 arg4 harg4 arg5 harg5 hc0 hc1 x0 x1 x2 xs0).1)

theorem scover2_C_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S5000x64 .f32) (x1 : Vec F S5000x1 .f32) (x2 : Vec F S1x64 .f32) (xs0 : Vec F S1x64 .f32) (y : S1x64.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S1x64.size (by sl_kernel_rfl) y

/-- Last point: what the running row holds afterwards. -/
def sout2_C_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S5000x64 .f32) (x1 : Vec F S5000x1 .f32) (x2 : Vec F S1x64 .f32) (xs0 : Vec F S1x64 .f32) : Vec F S1x64 .f32 :=
  VS2_0.read (Elt F) (VS2_0.writes (Elt F) VS2_0.junk (kernelRun2_C c i arg1 harg1 arg2 harg2 arg3 harg3 arg4 harg4 arg5 harg5 hc0 hc1 x0 x1 x2 xs0).2.1)

section
variable (V : (c : Dev nD) → (b : Ref sig .tc) → Buf (Elt F) ((c : Thread nD τ).loc b))

/-! ## What the output block and the running row hold after each point -/

/-- THE ACCUMULATION: the pair (output block, running row) after the body at position `n`: the case the closed forms
    select at `n`, run on the point's input blocks, the running row entering at what position `n - 1` left. -/
def outsAt2 (c : Dev nD) : (n : ℕ) → n < cfg2.N → Vec F S1x64 .f32 × Vec F S1x64 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 20 = 0 then
      False.elim (by have hN : n + 1 < 20 := lt_of_lt_of_eq hn (show cfg2.N = 20 from N_2); omega)
    else
      if h1 : (n + 1) % 20 = 19 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- At the first point: the clearing case's contents. -/
theorem outsAt2_A (c : Dev nD) (t : Fin cfg2.N) (h0 : t.val % 20 = 0) (h1 : ¬t.val % 20 = 19) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
      sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (by exfalso; have hN : n + 1 < 20 := lt_of_lt_of_eq hn (show cfg2.N = 20 from N_2); (try dsimp only at h0); omega)

/-- At a middle point: the plain case's contents, over the row the point before left. -/
theorem outsAt2_B (c : Dev nD) (t : Fin cfg2.N) (h0 : ¬t.val % 20 = 0) (h1 : ¬t.val % 20 = 19) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point: the writing-out case's contents, over the row the point before left. -/
theorem outsAt2_C (c : Dev nD) (t : Fin cfg2.N) (h0 : ¬t.val % 20 = 0) (h1 : t.val % 20 = 19) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one (every scoped buffer that is no
    staging buffer of this region at anything, the generator register at some state); afterwards the untouched scoped
    buffers, the running row at what the point before left in it, and the generator register at some state. -/
def PhiS (c : Dev nD) : (n : ℕ) → n ≤ cfg2.N → sProp 𝕄
  | 0, _ => Pipeline.ΦA spec2 c
  | n + 1, hn => iprop(iprop(others2 c ∗ owns (c : Thread nD τ) scM2_0 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(others2 c ∗ owns (c : Thread nD τ) scM2_0 fullShare ((outsAt2 V c n hn).2)) ∗ (∃ r, prngReg c r)) := rfl

theorem PhiS_pos (c : Dev nD) (n : ℕ) (h : n ≤ cfg2.N) (hz : n ≠ 0) :
    PhiS V c n h = iprop(iprop(others2 c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The pooling region's proof data on core `c`: the arrays as found on entry; after the body at point `t` each input's
    buffer at its block and the output's at the accumulation's first component; the invariant `PhiS`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the closed forms say which case the point is in; the
    invariant hands the body the running row at what the point before left (at anything at the first point) and takes
    it back at this point's contents; the idle output is handed back untouched away from the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 20 := lt_of_lt_of_eq t.isLt (show cfg2.N = 20 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  by_cases h0 : t.val % 20 = 0
  · by_cases h1 : t.val % 20 = 19
    · exfalso; omega
    · rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      have hz : t.val = 0 := by omega
      rw [PhiS_castSucc V c t, PhiS_zero V c _ _ hz, PhiA2_eq]
      iintro ⟨⟨⟨Hoth, HS0⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 20 = 19
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [HS0 Hoth]
        · isplitl [Hoth]; · iexact Hoth
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The plain invariant is the tracked one before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the tracked invariant gives the plain one back: the row's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨Hoth, HS0⟩, Hg⟩
  isplitl [HS0 Hoth]
  · isplitl [Hoth]; · iexact Hoth
    iexists _; iexact HS0
  iexact Hg

theorem hout2 (c : Dev nD) : (dat2 V c).Φ (Fin.last cfg2.N) ⊢ Pipeline.ΦA spec2 c :=
  Phi_out2 V c _ (by rw [Fin.val_last]; have : cfg2.N = 20 := N_2; omega)

end

end Cert.KernelIdeal.Tiles

end
-- ==== Proof.Ideal.Run.lean ====
/- The run of the whole program: its ten items in order — five stretches of host operations (the two degree counts and
   their scalings, the bias rows), the first dense transform, the first gather and aggregation, the fused transform,
   the second gather and aggregation, the pooling region. The buffers' contents at each of the eleven boundaries are a
   fold from the launch memory: a host stretch applies its operations; a region leaves each of its windows' arrays at
   what the pipeline's write-backs make of it and every other buffer as entered. No item writes an argument array, so
   each is read back through the fold to its launch contents. Every weakly fair execution terminates with every
   unscoped buffer at the last boundary's contents; the frame claim and the result's contents are read off that. -/
import proofs.«146874_j75788992905450_1_alg».proof.Proof.Gen.KernelIdeal.Launch
import proofs.«146874_j75788992905450_1_alg».proof.Proof.Gen.KernelIdeal.Skeleton
import proofs.«146874_j75788992905450_1_alg».proof.Proof.Gen.KernelIdeal.Points
import proofs.«146874_j75788992905450_1_alg».proof.Proof.Ideal.Tile2
import proofs.«146874_j75788992905450_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- The same read at the TensorCore's references: what the first transform is entered from. -/
abbrev E5 : (c : Dev nD) → (b : Ref sig .tc) → Buf (Elt F) ((c : Thread nD τ).loc b) := fun c b => W5 m ρ c b
/-- At region 0's exit: its arrays at what the pipeline leaves, every other buffer as entered. -/
def W6 (c : Dev nD) : Valuation τ sig (Elt F) :=
  Pipeline.withArrays spec0 c (W5 m ρ c) fun w => (dat0 (E5 m ρ) c).arrAt w cfg0.N
theorem W6_arr (c : Dev nD) (w : Fin cfg0.W) :
    W6 m ρ c (Proc.devRef .tc (Pipeline.arrRef spec0 w)) = (dat0 (E5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev E6 : (c : Dev nD) → (b : Ref sig .tc) → Buf (Elt F) ((c : Thread nD τ).loc b) := fun c b => W6 m ρ c b
theorem hF0 (c : Dev nD) (w : Fin cfg0.W) : (dat0 (E5 m ρ) c).arrAt w cfg0.N = E6 m ρ c (Pipeline.arrRef spec0 w) :=
  (W6_arr m ρ c w).symm
theorem hrest0 (c : Dev nD) : ∀ b, b ∉ Finset.univ.image (Pipeline.arrRef spec0) → E6 m ρ c b = E5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
abbrev E7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (E7 m ρ) c).arrAt w cfg1.N
theorem W8_arr (c : Dev nD) (w : Fin cfg1.W) :
    W8 m ρ c (Proc.devRef .tc (Pipeline.arrRef spec1 w)) = (dat1 (E7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev E8 : (c : Dev nD) → (b : Ref sig .tc) → Buf (Elt F) ((c : Thread nD τ).loc b) := fun c b => W8 m ρ c b
theorem hF1 (c : Dev nD) (w : Fin cfg1.W) : (dat1 (E7 m ρ) c).arrAt w cfg1.N = E8 m ρ c (Pipeline.arrRef spec1 w) :=
  (W8_arr m ρ c w).symm
theorem hrest1 (c : Dev nD) : ∀ b, b ∉ Finset.univ.image (Pipeline.arrRef spec1) → E8 m ρ c b = E7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev E9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (E9 m ρ) c).arrAt w cfg2.N
theorem W10_arr (c : Dev nD) (w : Fin cfg2.W) :
    W10 m ρ c (Proc.devRef .tc (Pipeline.arrRef spec2 w)) = (dat2 (E9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev E10 : (c : Dev nD) → (b : Ref sig .tc) → Buf (Elt F) ((c : Thread nD τ).loc b) := fun c b => W10 m ρ c b
theorem hF2 (c : Dev nD) (w : Fin cfg2.W) : (dat2 (E9 m ρ) c).arrAt w cfg2.N = E10 m ρ c (Pipeline.arrRef spec2 w) :=
  (W10_arr m ρ c w).symm
theorem hrest2 (c : Dev nD) : ∀ b, b ∉ Finset.univ.image (Pipeline.arrRef spec2) → E10 m ρ c b = E9 m ρ c b :=
  fun b hb => W10_of_ne m ρ c b fun w e => hb (Finset.mem_image.mpr ⟨w, Finset.mem_univ _, e⟩)

/-! ## A buffer no operation of a stretch writes keeps its contents over the stretch -/

theorem W1_keep (c : Dev nD) (r : Ref sig .tc) (h : r ∉ hostOps0_W) : W1 m ρ c r = W0 m ρ c r :=
  StableHlo.after_of_writes_sub hostOps0 _ hostOps0_writes h
theorem W2_keep (c : Dev nD) (r : Ref sig .tc) (h : r ∉ hostOps0_1_W) : W2 m ρ c r = W1 m ρ c r :=
  StableHlo.after_of_writes_sub hostOps0_1 _ hostOps0_1_writes h
theorem W3_keep (c : Dev nD) (r : Ref sig .tc) (h : r ∉ hostOps0_2_W) : W3 m ρ c r = W2 m ρ c r :=
  StableHlo.after_of_writes_sub hostOps0_2 _ hostOps0_2_writes h
theorem W4_keep (c : Dev nD) (r : Ref sig .tc) (h : r ∉ hostOps0_3_W) : W4 m ρ c r = W3 m ρ c r :=
  StableHlo.after_of_writes_sub hostOps0_3 _ hostOps0_3_writes h
theorem W5_keep (c : Dev nD) (r : Ref sig .tc) (h : r ∉ hostOps0_4_W) : W5 m ρ c r = W4 m ρ c r :=
  StableHlo.after_of_writes_sub hostOps0_4 _ hostOps0_4_writes h
theorem W7_keep (c : Dev nD) (r : Ref sig .tc) (h : r ∉ hostOps1_W) : W7 m ρ c r = W6 m ρ c r :=
  StableHlo.after_of_writes_sub hostOps1 _ hostOps1_writes h
theorem W9_keep (c : Dev nD) (r : Ref sig .tc) (h : r ∉ hostOps2_W) : W9 m ρ c r = W8 m ρ c r :=
  StableHlo.after_of_writes_sub hostOps2 _ hostOps2_writes h

/-! ## The arguments end as launched -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := (W6_arr m ρ c 0).trans (((dat0 (E5 m ρ) c).arrAt_in 0 rfl _).trans (A_eq0 (E5 m ρ) c 0))
    _ = W4 m ρ c (Proc.devRef .tc main_arg0) := W5_keep m ρ c main_arg0 (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := W9_keep m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := (W6_arr m ρ c 2).trans (((dat0 (E5 m ρ) c).arrAt_in 2 rfl _).trans (A_eq0 (E5 m ρ) c 2))
    _ = W4 m ρ c (Proc.devRef .tc main_arg3) := W5_keep m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := W9_keep m ρ c main_arg5 (by decide)
    _ = W7 m ρ c (Proc.devRef .tc main_arg5) := (W8_arr m ρ c 4).trans (((dat1 (E7 m ρ) c).arrAt_in 4 rfl _).trans (A_eq1 (E7 m ρ) c 4))
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E5 m ρ) c
  | ⟨1, _⟩ => fun c => dat1 (E7 m ρ) c
  | ⟨2, _⟩ => fun c => dat2 (E9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- REGION 0 over the thread state: entered from every unscoped buffer at `W5`, left at `W6`. Its arrays are split out
    of the unscoped buffers and put back at the exit contents; the generator register goes into the invariant and comes
    back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (E5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E5 m ρ c) (E6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. Its arrays are split out
    of the unscoped buffers and put back at the exit contents; the generator register goes into the invariant and comes
    back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (E7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E7 m ρ c) (E8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W9`, left at `W10`. Its arrays are split out
    of the unscoped buffers and put back at the exit contents; the generator register goes into the invariant and comes
    back; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin2 (E9 m ρ) c)
    unfold Pipeline.ΦA
    show (_ : sProp 𝕄) ⊢ _
    iintro ⟨Hp, -, Hr⟩
    isplitl [Hr]; · iexact Hr
    iexact Hp
  hout c := by
    rw [Pipeline.ownSems0_none]
    refine BI.Entails.trans (hout2 (E9 m ρ) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E9 m ρ c) (E10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ) ]

/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c)⟩) (run_all m ρ)

/-- THE RESULT: the result array ends at what the pooling region's write-backs leave of its output window's array,
    the arguments as launched. -/
theorem run_result : θ_run defs (onTc (τ := τ) (main (F := F))) ⟨m, fun _ => 0, ρ⟩ (fun r => ∀ c : Dev nD,
      r.2.mem ((c.tc : Thread nD τ).loc main_v39) = (dat2 (E9 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v39 (by decide))).trans (W10_arr m ρ c 3),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c)⟩) (run_all m ρ)

end Cert.KernelIdeal.Tiles

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«146874_j75788992905450_1_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibGcnLaws.lean ====
/-
  The two layer laws of a graph convolution written over whole arrays, and the same layers as a kernel tile spells them,
  each read at an index on the extended reals.

  A dense layer over a bias ROW: entry (r, j) is the sum over k of x(r, k) · w(k, j), plus b(0, j). The host spells it as a
  matrix product plus the bias row spread down the rows; a tile spells it as a product of narrowed operands (narrowing is the
  identity on the extended reals) into a zero accumulator plus the row spread down the tile's rows. A tile that holds rows
  off, off+1, … of x therefore holds exactly those rows of the whole layer: nothing but the row index moves, and no sum is
  regrouped.

  An edge scaling over a weight COLUMN: entry (e, j) is g(e, j) · col(e, 0), on the host by spreading the column across the
  lanes and in a tile by spreading the tile's slice of the column.

  A vector recast as a row, or as a column, is the vector spread into that shape: both read entry j.
  Nothing here depends on a program.
-/
import proofs.«146874_j75788992905450_1_alg».proof.Proof.LibPlainDot
import proofs.«146874_j75788992905450_1_alg».proof.Proof.LibPlainDotGeneral
import proofs.«146874_j75788992905450_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace GcnLaws

open Idealize.ShloMosaic Idealize.ShloMosaic.ValueIdx

variable {M K N E T : Nat}

/-! ## The dense layer -/

/-- The host's dense layer over a bias row: the matrix product plus the row spread down the rows. -/
def dense (D : DotDims ⟨2, ![M, K]⟩ ⟨2, ![K, N]⟩ ⟨2, ![M, N]⟩)
    (hb : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨2, ![1, N]⟩ .f32) :
    FVec Ideal ⟨2, ![M, N]⟩ .f32 :=
  addf (Host.dotGeneral (F := Ideal) D none x w) (broadcastInDim ⟨2, ![M, N]⟩ (![0, 1] : Fin 2 → Fin 2) hb b)

/-- A row spread down the rows by the host reads, at (r, j), the row's entry j. -/
theorem rowDown_apply {α : Type} (hb : (⟨2, ![1, N]⟩ : Shape).BroadcastsInDim ⟨2, ![M, N]⟩ (![0, 1] : Fin 2 → Fin 2))
    (b : (⟨2, ![1, N]⟩ : Shape).Idx → α) (r : Fin M) (j : Fin N) :
    broadcastInDim ⟨2, ![M, N]⟩ (![0, 1] : Fin 2 → Fin 2) hb b (ix2 r j) = b (ix2 (0 : Fin 1) j) := by
  refine broadcastInDim_apply _ hb b (ix2 r j) (ix2 (0 : Fin 1) j) fun a => ?_
  match a with
  | ⟨0, _⟩ => rfl
  | ⟨1, _⟩ =>
    show j.val = if N = 1 then 0 else j.val
    split
    · have := j.isLt; omega
    · rfl

/-- The host's dense layer at (r, j). -/
theorem dense_apply (D : DotDims ⟨2, ![M, K]⟩ ⟨2, ![K, N]⟩ ⟨2, ![M, N]⟩) (hD : PlainDot.IsPlain D)
    (hb : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨2, ![1, N]⟩ .f32)
    (r : Fin M) (j : Fin N) :
    dense D hb x w b (ix2 r j) = (∑ k : Fin K, x (ix2 r k) * w (ix2 k j)) + b (ix2 (0 : Fin 1) j) := by
  unfold dense
  rw [addf_apply, PlainDot.dotGeneral_apply D hD none x w r j, rowDown_apply hb b r j]

/-- A tile's dense layer at (p, j): narrowed operands into a zero accumulator, plus the bias row spread down the tile's
    rows. (A tile recasts some operands to their own shape first; that is the identity and is removed before this reading.) -/
theorem denseTile_apply (D : DotDims ⟨2, ![T, K]⟩ ⟨2, ![K, N]⟩ ⟨2, ![T, N]⟩) (hD : PlainDot.IsPlain D)
    (x : FVec Ideal ⟨2, ![T, K]⟩ .f32) (w : FVec Ideal ⟨2, ![K, N]⟩ .f32) (b : FVec Ideal ⟨2, ![1, N]⟩ .f32)
    (h1 h2 : FTy.bf16.bits < FTy.f32.bits) (hbb : (⟨2, ![1, N]⟩ : Shape).Broadcasts ⟨2, ![T, N]⟩)
    (p : Fin T) (j : Fin N) :
    addf (matmul D none (truncf .bf16 x h1) (truncf .bf16 w h2) (constant (F := Ideal) ⟨2, ![T, N]⟩ .f32 0x00000000#32))
        (broadcastTo ⟨2, ![T, N]⟩ b hbb) (ix2 p j)
      = (∑ k : Fin K, x (ix2 p k) * w (ix2 k j)) + b (ix2 (0 : Fin 1) j) := by
  rw [addf_apply, broadcastTo_1b_ab_apply b hbb p j]
  exact congrArg (· + b (ix2 (0 : Fin 1) j))
    (PlainDot.matmul_zero_apply D hD none (truncf .bf16 x h1) (truncf .bf16 w h2) p j)

/-- THE DENSE LAW: a tile holding the rows off + p of x computes the rows off + p of the whole layer. -/
theorem denseTile_eq_dense (Dt : DotDims ⟨2, ![T, K]⟩ ⟨2, ![K, N]⟩ ⟨2, ![T, N]⟩) (hDt : PlainDot.IsPlain Dt)
    (D : DotDims ⟨2, ![M, K]⟩ ⟨2, ![K, N]⟩ ⟨2, ![M, N]⟩) (hD : PlainDot.IsPlain D)
    (hb : (⟨2, ![1, N]⟩ : Shape).BroadcastsInDim ⟨2, ![M, N]⟩ (![0, 1] : Fin 2 → Fin 2))
    (X : FVec Ideal ⟨2, ![M, K]⟩ .f32) (w : FVec Ideal ⟨2, ![K, N]⟩ .f32) (b : FVec Ideal ⟨2, ![1, N]⟩ .f32)
    (x : FVec Ideal ⟨2, ![T, K]⟩ .f32) (h1 h2 : FTy.bf16.bits < FTy.f32.bits)
    (hbb : (⟨2, ![1, N]⟩ : Shape).Broadcasts ⟨2, ![T, N]⟩)
    (p : Fin T) (r : Fin M) (j : Fin N) (hx : ∀ k : Fin K, x (ix2 p k) = X (ix2 r k)) :
    addf (matmul Dt none (truncf .bf16 x h1) (truncf .bf16 w h2) (constant (F := Ideal) ⟨2, ![T, N]⟩ .f32 0x00000000#32))
        (broadcastTo ⟨2, ![T, N]⟩ b hbb) (ix2 p j)
      = dense D hb X w b (ix2 r j) := by
  rw [denseTile_apply Dt hDt x w b h1 h2 hbb p j, dense_apply D hD hb X w b r j]
  exact congrArg (· + b (ix2 (0 : Fin 1) j)) (Finset.sum_congr rfl fun k _ => by rw [hx k])

/-! ## The edge scaling -/

/-- The host's edge scaling over a weight column: the messages times the column spread across the lanes. -/
def scale (hb : (⟨2, ![E, 1]⟩ : Shape).BroadcastsInDim ⟨2, ![E, N]⟩ (![0, 1] : Fin 2 → Fin 2))
    (g : FVec Ideal ⟨2, ![E, N]⟩ .f32) (col : FVec Ideal ⟨2, ![E, 1]⟩ .f32) : FVec Ideal ⟨2, ![E, N]⟩ .f32 :=
  mulf g (broadcastInDim ⟨2, ![E, N]⟩ (![0, 1] : Fin 2 → Fin 2) hb col)

/-- A column spread across the lanes by the host reads, at (e, j), the column's entry e. -/
theorem colAcross_apply {α : Type} (hb : (⟨2, ![E, 1]⟩ : Shape).BroadcastsInDim ⟨2, ![E, N]⟩ (![0, 1] : Fin 2 → Fin 2))
    (col : (⟨2, ![E, 1]⟩ : Shape).Idx → α) (e : Fin E) (j : Fin N) :
    broadcastInDim ⟨2, ![E, N]⟩ (![0, 1] : Fin 2 → Fin 2) hb col (ix2 e j) = col (ix2 e (0 : Fin 1)) := by
  refine broadcastInDim_apply _ hb col (ix2 e j) (ix2 e (0 : Fin 1)) fun a => ?_
  match a with
  | ⟨0, _⟩ =>
    show e.val = if E = 1 then 0 else e.val
    split
    · have := e.isLt; omega
    · rfl
  | ⟨1, _⟩ => rfl

/-- The host's edge scaling at (e, j). -/
theorem scale_apply (hb : (⟨2, ![E, 1]⟩ : Shape).BroadcastsInDim ⟨2, ![E, N]⟩ (![0, 1] : Fin 2 → Fin 2))
    (g : FVec Ideal ⟨2, ![E, N]⟩ .f32) (col : FVec Ideal ⟨2, ![E, 1]⟩ .f32) (e : Fin E) (j : Fin N) :
    scale hb g col (ix2 e j) = g (ix2 e j) * col (ix2 e (0 : Fin 1)) := by
  unfold scale
  rw [mulf_apply, colAcross_apply hb col e j]

/-- THE SCALING LAW: a tile holding the rows off + p of the messages and of the column computes those rows of the whole
    scaling. (The tile's identical recasts of both operands are removed before this reading.) -/
theorem scaleTile_eq_scale (hb : (⟨2, ![E, 1]⟩ : Shape).BroadcastsInDim ⟨2, ![E, N]⟩ (![0, 1] : Fin 2 → Fin 2))
    (Gm : FVec Ideal ⟨2, ![E, N]⟩ .f32) (Col : FVec Ideal ⟨2, ![E, 1]⟩ .f32)
    (g : FVec Ideal ⟨2, ![T, N]⟩ .f32) (col : FVec Ideal ⟨2, ![T, 1]⟩ .f32)
    (hbb : (⟨2, ![T, 1]⟩ : Shape).Broadcasts ⟨2, ![T, N]⟩)
    (p : Fin T) (e : Fin E) (j : Fin N) (hgx : g (ix2 p j) = Gm (ix2 e j)) (hcx : col (ix2 p (0 : Fin 1)) = Col (ix2 e (0 : Fin 1))) :
    mulf g (broadcastTo ⟨2, ![T, N]⟩ col hbb) (ix2 p j) = scale hb Gm Col (ix2 e j) := by
  rw [mulf_apply, Keepdims.broadcastTo_a1_ab_apply col hbb p j, scale_apply hb Gm Col e j, hgx, hcx]

/-! ## The rectifier -/

/-- The host's zero splat reads the zero word's value everywhere. -/
theorem zeroSplat_apply (s : Shape) (h : (⟨0, ![]⟩ : Shape).BroadcastsInDim s (![] : Fin 0 → Fin s.rank)) (i : s.Idx) :
    broadcastInDim s (![] : Fin 0 → Fin s.rank) h (constant (F := Ideal) ⟨0, ![]⟩ .f32 0x00000000#32) i
      = Ideal.ofBits .f32 0x00000000#32 :=
  broadcastInDim_apply _ h _ i (fun a => a.elim0) (fun a => a.elim0)

/-- The host's rectifier: the maximum with the zero splat. -/
def relu (s : Shape) (h : (⟨0, ![]⟩ : Shape).BroadcastsInDim s (![] : Fin 0 → Fin s.rank)) (a : FVec Ideal s .f32) : FVec Ideal s .f32 :=
  maximumf a (broadcastInDim s (![] : Fin 0 → Fin s.rank) h (constant (F := Ideal) ⟨0, ![]⟩ .f32 0x00000000#32))

/-- A tile's rectifier — the maximum with a splat of the scalar zero — at an index whose value is the whole array's at
    another index, is the host's rectifier of the whole array there. -/
theorem reluTile_eq_relu (s s' : Shape) (h : (⟨0, ![]⟩ : Shape).BroadcastsInDim s (![] : Fin 0 → Fin s.rank))
    (A : FVec Ideal s .f32) (a : FVec Ideal s' .f32) (j : s'.Idx) (i : s.Idx) (hai : a j = A i) :
    maximumf a (broadcast s' (Scalar.ofBits (F := Ideal) .f32 0x00000000#32)) j = relu s h A i := by
  unfold relu
  rw [maximumf_apply, maximumf_apply, zeroSplat_apply s h i, hai]
  rfl

/-! ## A vector recast as a row or a column is the vector spread into that shape -/

/-- A vector recast as a one-row matrix is the vector spread along the row. -/
theorem rowCast_eq_rowSpread {α : Type} (b : (⟨1, ![N]⟩ : Shape).Idx → α) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ (![1] : Fin 1 → Fin 2) hb b := by
  funext i
  obtain ⟨u, j, rfl⟩ : ∃ (u : Fin 1) (j : Fin N), i = ix2 u j := ⟨i 0, i 1, eq_ix2 i⟩
  rw [shapeCast_a_1a_apply b hc u j]
  refine (broadcastInDim_apply _ hb b (ix2 u j) (ix1 j) fun a => ?_).symm
  match a with
  | ⟨0, _⟩ =>
    show j.val = if N = 1 then 0 else j.val
    split
    · have := j.isLt; omega
    · rfl

/-- A vector recast as a one-column matrix is the vector spread down the column. -/
theorem colCast_eq_colSpread {α : Type} (w : (⟨1, ![E]⟩ : Shape).Idx → α) (hc : (⟨1, ![E]⟩ : Shape).ShapeCasts ⟨2, ![E, 1]⟩)
    (hb : (⟨1, ![E]⟩ : Shape).BroadcastsInDim ⟨2, ![E, 1]⟩ (![0] : Fin 1 → Fin 2)) :
    shapeCast ⟨2, ![E, 1]⟩ w hc = broadcastInDim ⟨2, ![E, 1]⟩ (![0] : Fin 1 → Fin 2) hb w := by
  funext i
  obtain ⟨e, u, rfl⟩ : ∃ (e : Fin E) (u : Fin 1), i = ix2 e u := ⟨i 0, i 1, eq_ix2 i⟩
  rw [Keepdims.shapeCast_a_a1_apply w hc e u]
  refine (broadcastInDim_apply _ hb w (ix2 e u) (ix1 e) fun a => ?_).symm
  match a with
  | ⟨0, _⟩ =>
    show e.val = if E = 1 then 0 else e.val
    split
    · have := e.isLt; omega
    · rfl

end GcnLaws

end
-- ==== Proof.Ideal.Value0.lean ====
/- The first dense transform as one function of whole arrays. At the extended reals a tile's output entry (p, j) is
   the sum over k of (x(p, k) · s(p)) · w(k, j): narrowing to sixteen bits is the identity, and a product into the zero
   accumulator is the plain sum. The tile at grid point t holds rows 5000·t + p of the features and of the scaling
   column and the whole weight matrix, and the 20 tiles' output blocks tile the 100000 rows; so the output array ends
   at the host-style product of (features scaled row by row) with the weights, entry by entry the same sum. -/
import proofs.«146874_j75788992905450_1_alg».proof.Proof.Ideal.Tile0
import proofs.«146874_j75788992905450_1_alg».proof.Proof.LibGcnLaws
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pool

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat)

/-- The unit offset is the zero offset. -/
theorem hz : (![0, 0] : Fin 2 → Nat) = fun _ => 0 := funext fun a => by fin_cases a <;> rfl

/-- Row 5000·t + p of a 100000-row array: the row tile t holds at its position p. -/
def rowOf (tv : ℕ) (htv : tv < 20) (p : Fin 5000) : Fin 100000 := ⟨tv * 5000 + p.val, by have := p.isLt; omega⟩

/-- The tile product's dimension numbers are those of a plain [5000, 128] × [128, 128] product. -/
theorem plain0 : PlainDot.IsPlain dot_S5000x128_S128x128_S5000x128_1_0_0_1_n_n where
  rank := rfl
  size := rfl
  lhs0 i q := by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  lhs1 i q := dot_S5000x128_S128x128_S5000x128_1_0_0_1_n_n.lhsIdx_val_of_single rfl i q
  rhs0 i q := dot_S5000x128_S128x128_S5000x128_1_0_0_1_n_n.rhsIdx_val_of_single rfl i q
  rhs1 i q := by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- The tile's stored value at (p, j): the sum over k of (x(p, k) · s(p)) · w(k, j). -/
theorem pay0_apply (x0 : Vec Ideal S5000x128 .f32) (x1 : Vec Ideal S5000x1 .f32) (w : Vec Ideal S128x128 .f32) (p : Fin 5000) (q : Fin 128) :
    k0_pay1 (F := Ideal) x0 x1 w (ix2 p q) = ∑ k : Fin 128, (x0 (ix2 p k) * x1 (ix2 p (0 : Fin 1))) * w (ix2 k q) := by
  unfold k0_pay1
  refine (PlainDot.matmul_zero_apply dot_S5000x128_S128x128_S5000x128_1_0_0_1_n_n plain0 none _ _ p q).trans ?_
  refine Finset.sum_congr rfl fun k _ => ?_
  refine congrArg (· * w (ix2 k q)) ?_
  change mulf (F := Ideal) _ _ (ix2 p k) = _
  rw [mulf_apply, Keepdims.broadcastTo_a1_ab_apply, shapeCast_self]

/-- The host-style first transform: the features scaled row by row by a column, times the weights. -/
def H0 (D : DotDims ⟨2, ![100000, 128]⟩ ⟨2, ![128, 128]⟩ ⟨2, ![100000, 128]⟩)
    (hb : (⟨2, ![100000, 1]⟩ : Shape).BroadcastsInDim ⟨2, ![100000, 128]⟩ (![0, 1] : Fin 2 → Fin 2))
    (X : FVec Ideal ⟨2, ![100000, 128]⟩ .f32) (col : FVec Ideal ⟨2, ![100000, 1]⟩ .f32) (W : FVec Ideal ⟨2, ![128, 128]⟩ .f32) :
    FVec Ideal ⟨2, ![100000, 128]⟩ .f32 :=
  Host.dotGeneral (F := Ideal) D none (GcnLaws.scale hb X col) W

theorem H0_apply (D : DotDims ⟨2, ![100000, 128]⟩ ⟨2, ![128, 128]⟩ ⟨2, ![100000, 128]⟩) (hD : PlainDot.IsPlain D)
    (hb : (⟨2, ![100000, 1]⟩ : Shape).BroadcastsInDim ⟨2, ![100000, 128]⟩ (![0, 1] : Fin 2 → Fin 2))
    (X : FVec Ideal ⟨2, ![100000, 128]⟩ .f32) (col : FVec Ideal ⟨2, ![100000, 1]⟩ .f32) (W : FVec Ideal ⟨2, ![128, 128]⟩ .f32)
    (r : Fin 100000) (q : Fin 128) :
    H0 D hb X col W (ix2 r q) = ∑ k : Fin 128, (X (ix2 r k) * col (ix2 r (0 : Fin 1))) * W (ix2 k q) := by
  unfold H0
  rw [PlainDot.dotGeneral_apply D hD none _ W r q]
  exact Finset.sum_congr rfl fun k _ => by rw [GcnLaws.scale_apply hb X col r k]

/-- The printed index maps over the grid: the row blocks move with the grid point, the weights stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))
variable (D : DotDims ⟨2, ![100000, 128]⟩ ⟨2, ![128, 128]⟩ ⟨2, ![100000, 128]⟩)
variable (hb : (⟨2, ![100000, 1]⟩ : Shape).BroadcastsInDim ⟨2, ![100000, 128]⟩ (![0, 1] : Fin 2 → Fin 2))

/-- WHAT POINT t WRITES BACK is block t of the host-style transform of the arrays found on entry. -/
theorem flushed0_eq (hD : PlainDot.IsPlain D) (c : Dev nD) (t : Fin cfg0.N) :
    (dat0 V c).flushed 3 t = ((cfg0.win 3).blk t).view.read (Elt Ideal) (H0 D hb (V c main_arg0) (V c main_v10) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  funext j
  obtain ⟨p, q, rfl⟩ : ∃ (p : Fin 5000) (q : Fin 128), j = ix2 p q := ⟨j 0, j 1, eq_ix2 j⟩
  refine (pay0_apply (iblk0 V c 0 t) (iblk0 V c 1 t) (iblk0 V c 2 t) p q).trans ?_
  obtain ⟨e00, e01, e10, e11, e20, e21, e30, e31⟩ := idx0 t
  have hN : t.val < 20 := lt_of_lt_of_eq t.isLt (show cfg0.N = 20 from N_0)
  show _ = H0 D hb (V c main_arg0) (V c main_v10) (V c main_arg3) (((cfg0.win 3).blk t).view.emb (ix2 p q))
  have hemb : ((cfg0.win 3).blk t).view.emb (ix2 p q) = ix2 (rowOf t.val hN p) q := funext fun a => Fin.ext (by
    match a with
    | ⟨0, _⟩ => show win0_3.index t (0 : Fin 2) * 5000 + 1 * p.val = t.val * 5000 + p.val; rw [e30]; omega
    | ⟨1, _⟩ => show win0_3.index t (1 : Fin 2) * 128 + 1 * q.val = q.val; rw [e31]; omega)
  rw [hemb, H0_apply D hD hb]
  refine Finset.sum_congr rfl fun k _ => ?_
  have h0 : iblk0 V c 0 t (ix2 p k) = V c main_arg0 (ix2 (rowOf t.val hN p) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  have h1 : iblk0 V c 1 t (ix2 p (0 : Fin 1)) = V c main_v10 (ix2 (rowOf t.val hN p) (0 : Fin 1)) := by
    show V c main_v10 (((cfg0.win 1).blk t).view.emb (ix2 p (0 : Fin 1))) = _
    refine congrArg _ (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 1 + 1 * 0 = 0; rw [e11]
  have h2 : iblk0 V c 2 t (ix2 k q) = V c main_arg3 (ix2 k q) := by
    show V c main_arg3 (((cfg0.win 2).blk t).view.emb (ix2 k q)) = _
    refine congrArg _ (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  rw [h0, h1, h2]

/-- An index of the output array is in point t's block iff each coordinate is in the block's range on its axis. -/
theorem mem_blk0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Every row of the output lies in the block of the point that is its row number divided by 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk0_3]
  obtain ⟨-, -, -, -, -, -, e30, e31⟩ := idx0 ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e30]; dsimp only; omega
  | ⟨1, _⟩ => show win0_3.index _ (1 : Fin 2) * 128 ≤ (i 1).val ∧ (i 1).val < win0_3.index _ (1 : Fin 2) * 128 + 128; rw [e31]; omega

/-- THE FIRST TRANSFORM'S OUTPUT ARRAY after the region: the host-style transform of the arrays found on entry. -/
theorem final0 (hD : PlainDot.IsPlain D) (c : Dev nD) :
    (dat0 V c).arrAt 3 cfg0.N = H0 D hb (V c main_arg0) (V c main_v10) (V c main_arg3) :=
  (dat0 V c).arrAt_eq_of_cover 3 _ (fun t _ => flushed0_eq V D hb hD c t) (cover0)

end

end Cert.KernelIdeal.Pool

end
-- ==== Proof.Ideal.Value1.lean ====
/- The fused transform as one function of whole arrays. At the extended reals a tile's output entry (p, j) is the sum
   over k of (max(m(p, k) · d(p) + b(k), 0) · s(p)) · w(k, j). The tile at grid point t holds rows 5000·t + p of the
   aggregated features and of the two scaling columns, the whole bias row and the whole weight matrix, and the 20 tiles'
   output blocks tile the 100000 rows; so the output array ends at the host-style product of (the rectified affine image
   of the aggregate, scaled row by row) with the weights. -/
import proofs.«146874_j75788992905450_1_alg».proof.Proof.Ideal.Tile1
import proofs.«146874_j75788992905450_1_alg».proof.Proof.Ideal.Value0
import proofs.«146874_j75788992905450_1_alg».proof.Proof.LibGcnLaws
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pool

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat)

/-- The tile product's dimension numbers are those of a plain [5000, 128] × [128, 64] product. -/
theorem plain1 : PlainDot.IsPlain dot_S5000x128_S128x64_S5000x64_1_0_0_1_n_n where
  rank := rfl
  size := rfl
  lhs0 i q := by
    unfold DotDims.lhsIdx
    rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
    rfl
  lhs1 i q := dot_S5000x128_S128x64_S5000x64_1_0_0_1_n_n.lhsIdx_val_of_single rfl i q
  rhs0 i q := dot_S5000x128_S128x64_S5000x64_1_0_0_1_n_n.rhsIdx_val_of_single rfl i q
  rhs1 i q := by
    unfold DotDims.rhsIdx
    rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
    rfl

/-- A tile's affine image: the block times the column spread across the lanes, plus the row spread down the rows. -/
def affTile (x0 : Vec Ideal S5000x128 .f32) (x1 : Vec Ideal S5000x1 .f32) (x2 : Vec Ideal S1x128 .f32) : FVec Ideal S5000x128 .f32 :=
  addf (mulf x0 (broadcastTo S5000x128 x1 broadcasts_S5000x1_S5000x128)) (broadcastTo S5000x128 x2 broadcasts_S1x128_S5000x128)

theorem affTile_apply (x0 : Vec Ideal S5000x128 .f32) (x1 : Vec Ideal S5000x1 .f32) (x2 : Vec Ideal S1x128 .f32) (p : Fin 5000) (k : Fin 128) :
    affTile x0 x1 x2 (ix2 p k) = x0 (ix2 p k) * x1 (ix2 p (0 : Fin 1)) + x2 (ix2 (0 : Fin 1) k) := by
  unfold affTile
  rw [addf_apply, mulf_apply, Keepdims.broadcastTo_a1_ab_apply, broadcastTo_1b_ab_apply]

/-- The tile's stored value at (p, j): the sum over k of (the rectified affine image at (p, k), scaled by s(p)) · w(k, j). -/
theorem pay1_apply (x0 : Vec Ideal S5000x128 .f32) (x1 : Vec Ideal S5000x1 .f32) (x2 : Vec Ideal S1x128 .f32) (x3 : Vec Ideal S5000x1 .f32)
    (w : Vec Ideal S128x64 .f32) (p : Fin 5000) (q : Fin 64) :
    k1_pay1 (F := Ideal) x0 x1 x2 x3 w (ix2 p q)
      = ∑ k : Fin 128, (maximumf (affTile x0 x1 x2) (broadcast S5000x128 (Scalar.ofBits (F := Ideal) .f32 0x00000000#32)) (ix2 p k) * x3 (ix2 p (0 : Fin 1))) * w (ix2 k q) := by
  unfold k1_pay1
  refine (PlainDot.matmul_zero_apply dot_S5000x128_S128x64_S5000x64_1_0_0_1_n_n plain1 none _ _ p q).trans ?_
  refine Finset.sum_congr rfl fun k _ => ?_
  refine congrArg (· * w (ix2 k q)) ?_
  change mulf (F := Ideal) _ _ (ix2 p k) = _
  rw [mulf_apply, Keepdims.broadcastTo_a1_ab_apply]
  simp only [shapeCast_self]
  rfl

/-- The host-style affine image of the aggregate: scaled row by row by a column, plus the bias row spread down the rows. -/
def A1 (hb : (⟨2, ![100000, 1]⟩ : Shape).BroadcastsInDim ⟨2, ![100000, 128]⟩ (![0, 1] : Fin 2 → Fin 2))
    (hr : (⟨2, ![1, 128]⟩ : Shape).BroadcastsInDim ⟨2, ![100000, 128]⟩ (![0, 1] : Fin 2 → Fin 2))
    (M : FVec Ideal ⟨2, ![100000, 128]⟩ .f32) (cd : FVec Ideal ⟨2, ![100000, 1]⟩ .f32) (b : FVec Ideal ⟨2, ![1, 128]⟩ .f32) :
    FVec Ideal ⟨2, ![100000, 128]⟩ .f32 :=
  addf (GcnLaws.scale hb M cd) (broadcastInDim ⟨2, ![100000, 128]⟩ (![0, 1] : Fin 2 → Fin 2) hr b)

theorem A1_apply (hb : (⟨2, ![100000, 1]⟩ : Shape).BroadcastsInDim ⟨2, ![100000, 128]⟩ (![0, 1] : Fin 2 → Fin 2))
    (hr : (⟨2, ![1, 128]⟩ : Shape).BroadcastsInDim ⟨2, ![100000, 128]⟩ (![0, 1] : Fin 2 → Fin 2))
    (M : FVec Ideal ⟨2, ![100000, 128]⟩ .f32) (cd : FVec Ideal ⟨2, ![100000, 1]⟩ .f32) (b : FVec Ideal ⟨2, ![1, 128]⟩ .f32)
    (r : Fin 100000) (k : Fin 128) :
    A1 hb hr M cd b (ix2 r k) = M (ix2 r k) * cd (ix2 r (0 : Fin 1)) + b (ix2 (0 : Fin 1) k) := by
  unfold A1
  rw [addf_apply, GcnLaws.scale_apply hb M cd r k, GcnLaws.rowDown_apply hr b r k]

/-- The host-style fused transform: the rectified affine image, scaled row by row by the source column, times the weights. -/
def H1 (D : DotDims ⟨2, ![100000, 128]⟩ ⟨2, ![128, 64]⟩ ⟨2, ![100000, 64]⟩)
    (hb : (⟨2, ![100000, 1]⟩ : Shape).BroadcastsInDim ⟨2, ![100000, 128]⟩ (![0, 1] : Fin 2 → Fin 2))
    (hr : (⟨2, ![1, 128]⟩ : Shape).BroadcastsInDim ⟨2, ![100000, 128]⟩ (![0, 1] : Fin 2 → Fin 2))
    (h0 : (⟨0, ![]⟩ : Shape).BroadcastsInDim ⟨2, ![100000, 128]⟩ (![] : Fin 0 → Fin 2))
    (M : FVec Ideal ⟨2, ![100000, 128]⟩ .f32) (cd : FVec Ideal ⟨2, ![100000, 1]⟩ .f32) (b : FVec Ideal ⟨2, ![1, 128]⟩ .f32)
    (cs : FVec Ideal ⟨2, ![100000, 1]⟩ .f32) (W : FVec Ideal ⟨2, ![128, 64]⟩ .f32) : FVec Ideal ⟨2, ![100000, 64]⟩ .f32 :=
  Host.dotGeneral (F := Ideal) D none (GcnLaws.scale hb (GcnLaws.relu ⟨2, ![100000, 128]⟩ h0 (A1 hb hr M cd b)) cs) W

theorem H1_apply (D : DotDims ⟨2, ![100000, 128]⟩ ⟨2, ![128, 64]⟩ ⟨2, ![100000, 64]⟩) (hD : PlainDot.IsPlain D)
    (hb : (⟨2, ![100000, 1]⟩ : Shape).BroadcastsInDim ⟨2, ![100000, 128]⟩ (![0, 1] : Fin 2 → Fin 2))
    (hr : (⟨2, ![1, 128]⟩ : Shape).BroadcastsInDim ⟨2, ![100000, 128]⟩ (![0, 1] : Fin 2 → Fin 2))
    (h0 : (⟨0, ![]⟩ : Shape).BroadcastsInDim ⟨2, ![100000, 128]⟩ (![] : Fin 0 → Fin 2))
    (M : FVec Ideal ⟨2, ![100000, 128]⟩ .f32) (cd : FVec Ideal ⟨2, ![100000, 1]⟩ .f32) (b : FVec Ideal ⟨2, ![1, 128]⟩ .f32)
    (cs : FVec Ideal ⟨2, ![100000, 1]⟩ .f32) (W : FVec Ideal ⟨2, ![128, 64]⟩ .f32) (r : Fin 100000) (q : Fin 64) :
    H1 D hb hr h0 M cd b cs W (ix2 r q)
      = ∑ k : Fin 128, (GcnLaws.relu ⟨2, ![100000, 128]⟩ h0 (A1 hb hr M cd b) (ix2 r k) * cs (ix2 r (0 : Fin 1))) * W (ix2 k q) := by
  unfold H1
  rw [PlainDot.dotGeneral_apply D hD none _ W r q]
  exact Finset.sum_congr rfl fun k _ => by rw [GcnLaws.scale_apply hb _ cs r k]

/-- The printed index maps over the grid: the row blocks move with the grid point, the bias row and the weights stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))
variable (D : DotDims ⟨2, ![100000, 128]⟩ ⟨2, ![128, 64]⟩ ⟨2, ![100000, 64]⟩)
variable (hb : (⟨2, ![100000, 1]⟩ : Shape).BroadcastsInDim ⟨2, ![100000, 128]⟩ (![0, 1] : Fin 2 → Fin 2))
variable (hr : (⟨2, ![1, 128]⟩ : Shape).BroadcastsInDim ⟨2, ![100000, 128]⟩ (![0, 1] : Fin 2 → Fin 2))
variable (h0 : (⟨0, ![]⟩ : Shape).BroadcastsInDim ⟨2, ![100000, 128]⟩ (![] : Fin 0 → Fin 2))

/-- WHAT POINT t WRITES BACK is block t of the host-style fused transform of the arrays found on entry. -/
theorem flushed1_eq (hD : PlainDot.IsPlain D) (c : Dev nD) (t : Fin cfg1.N) :
    (dat1 V c).flushed 5 t = ((cfg1.win 5).blk t).view.read (Elt Ideal)
      (H1 D hb hr h0 (V c main_v27) (V c main_v14) (V c main_v15) (V c main_v10) (V c main_arg5)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz, View.ld_unit_zero (S := S128x64) hz]
  funext j
  obtain ⟨p, q, rfl⟩ : ∃ (p : Fin 5000) (q : Fin 64), j = ix2 p q := ⟨j 0, j 1, eq_ix2 j⟩
  refine (pay1_apply (iblk1 V c 0 t) (iblk1 V c 1 t) (iblk1 V c 2 t) (iblk1 V c 3 t) (iblk1 V c 4 t) p q).trans ?_
  obtain ⟨e00, e01, e10, e11, e20, e21, e30, e31, e40, e41, e50, e51⟩ := idx1 t
  have hN : t.val < 20 := lt_of_lt_of_eq t.isLt (show cfg1.N = 20 from N_1)
  show _ = H1 D hb hr h0 (V c main_v27) (V c main_v14) (V c main_v15) (V c main_v10) (V c main_arg5) (((cfg1.win 5).blk t).view.emb (ix2 p q))
  have hemb : ((cfg1.win 5).blk t).view.emb (ix2 p q) = ix2 (rowOf t.val hN p) q := funext fun a => Fin.ext (by
    match a with
    | ⟨0, _⟩ => show win1_5.index t (0 : Fin 2) * 5000 + 1 * p.val = t.val * 5000 + p.val; rw [e50]; omega
    | ⟨1, _⟩ => show win1_5.index t (1 : Fin 2) * 64 + 1 * q.val = q.val; rw [e51]; omega)
  rw [hemb, H1_apply D hD hb hr h0]
  refine Finset.sum_congr rfl fun k _ => ?_
  have hm : iblk1 V c 0 t (ix2 p k) = V c main_v27 (ix2 (rowOf t.val hN p) k) := by
    show V c main_v27 (((cfg1.win 0).blk t).view.emb (ix2 p k)) = _
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  have hd : iblk1 V c 1 t (ix2 p (0 : Fin 1)) = V c main_v14 (ix2 (rowOf t.val hN p) (0 : Fin 1)) := by
    show V c main_v14 (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 1 + 1 * 0 = 0; rw [e11]
  have hbias : iblk1 V c 2 t (ix2 (0 : Fin 1) k) = V c main_v15 (ix2 (0 : Fin 1) k) := by
    show V c main_v15 (((cfg1.win 2).blk t).view.emb (ix2 (0 : Fin 1) k)) = _
    refine congrArg _ (funext fun a => Fin.ext ?_)
    match a with
    | ⟨0, _⟩ => show win1_2.index t (0 : Fin 2) * 1 + 1 * 0 = 0; rw [e20]
    | ⟨1, _⟩ => show win1_2.index t (1 : Fin 2) * 128 + 1 * k.val = k.val; rw [e21]; omega
  have hs : iblk1 V c 3 t (ix2 p (0 : Fin 1)) = V c main_v10 (ix2 (rowOf t.val hN p) (0 : Fin 1)) := by
    show V c main_v10 (((cfg1.win 3).blk t).view.emb (ix2 p (0 : Fin 1))) = _
    refine congrArg _ (funext fun a => Fin.ext ?_)
    match a with
    | ⟨0, _⟩ => show win1_3.index t (0 : Fin 2) * 5000 + 1 * p.val = t.val * 5000 + p.val; rw [e30]; omega
    | ⟨1, _⟩ => show win1_3.index t (1 : Fin 2) * 1 + 1 * 0 = 0; rw [e31]
  have hw : iblk1 V c 4 t (ix2 k q) = V c main_arg5 (ix2 k q) := by
    show V c main_arg5 (((cfg1.win 4).blk t).view.emb (ix2 k q)) = _
    refine congrArg _ (funext fun a => Fin.ext ?_)
    match a with
    | ⟨0, _⟩ => show win1_4.index t (0 : Fin 2) * 128 + 1 * k.val = k.val; rw [e40]; omega
    | ⟨1, _⟩ => show win1_4.index t (1 : Fin 2) * 64 + 1 * q.val = q.val; rw [e41]; omega
  have hrelu : maximumf (affTile (iblk1 V c 0 t) (iblk1 V c 1 t) (iblk1 V c 2 t)) (broadcast S5000x128 (Scalar.ofBits (F := Ideal) .f32 0x00000000#32)) (ix2 p k)
      = GcnLaws.relu ⟨2, ![100000, 128]⟩ h0 (A1 hb hr (V c main_v27) (V c main_v14) (V c main_v15)) (ix2 (rowOf t.val hN p) k) :=
    GcnLaws.reluTile_eq_relu ⟨2, ![100000, 128]⟩ S5000x128 h0 _ _ (ix2 p k) (ix2 (rowOf t.val hN p) k)
      (by rw [affTile_apply, A1_apply, hm, hd, hbias])
  rw [hrelu, hs, hw]

/-- An index of the output array is in point t's block iff each coordinate is in the block's range on its axis. -/
theorem mem_blk1_5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v28).slice (win1_5.rect t)).set ↔ _
  rw [View.set_slice_whole, Rect.mem_set_unit]
  exact Iff.rfl

theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  rw [mem_blk1_5]
  obtain ⟨-, -, -, -, -, -, -, -, -, -, e50, e51⟩ := idx1 ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e50]; dsimp only; omega
  | ⟨1, _⟩ => show win1_5.index _ (1 : Fin 2) * 64 ≤ (i 1).val ∧ (i 1).val < win1_5.index _ (1 : Fin 2) * 64 + 64; rw [e51]; omega

/-- THE FUSED TRANSFORM'S OUTPUT ARRAY after the region: the host-style transform of the arrays found on entry. -/
theorem final1 (hD : PlainDot.IsPlain D) (c : Dev nD) :
    (dat1 V c).arrAt 5 cfg1.N = H1 D hb hr h0 (V c main_v27) (V c main_v14) (V c main_v15) (V c main_v10) (V c main_arg5) :=
  (dat1 V c).arrAt_eq_of_cover 5 _ (fun t _ => flushed1_eq V D hb hr h0 hD c t) (cover1)

end

end Cert.KernelIdeal.Pool

end
-- ==== Proof.LibSums.lean ====
/-
  General lemmas on finite sums, used to compare a sum accumulated tile by tile over zero-padded rows with the plain sum
  over the rows.

  * `coe_sum`: the inclusion of the reals in the extended reals commutes with finite sums.
  * `partialSum`: for a family indexed by `Fin (T * B)`, seen as `T` consecutive tiles of `B` entries, the sum of the
    entries of the first `t` tiles. It starts at `0`, grows by one tile's sum at each step, and ends at the full sum;
    so any accumulator obeying the same recurrence ends at the full sum (`acc_eq_sum`).
  * `sum_pad`: extending a family on `Fin n` by zeros to `Fin N` (`n ≤ N`) does not change its sum.
  Each statement is given for symbolic extents and again for the literal extents 62 * 16384 = 1015808 and
  1000000 ≤ 1015808.
-/
import Mathlib
import Idealize.ShloMosaic.PureOps.Ideal

noncomputable section

namespace Cert.LibSums

open BigOperators

/-! ### Real sums inside the extended reals -/

/-- The inclusion `ℝ → EReal` commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion `ℝ → EReal` commutes with a sum over a whole finite type. -/
theorem coe_sum_univ {ι : Type*} [Fintype ι] (f : ι → ℝ) :
    ((∑ i, f i : ℝ) : EReal) = ∑ i, (f i : EReal) :=
  coe_sum Finset.univ f

/-! ### A sum accumulated tile by tile -/

section Tiles

variable {M : Type*} [AddCommMonoid M]

/-- Entry `i` of tile `t` lies inside `T` tiles of `B` entries. -/
theorem tile_idx_lt {T B t i : ℕ} (ht : t < T) (hi : i < B) : t * B + i < T * B := by
  have h1 : (t + 1) * B ≤ T * B := Nat.mul_le_mul_right B ht
  have h2 : (t + 1) * B = t * B + B := Nat.succ_mul t B
  omega

/-- The sum of the entries of the first `t` tiles of a family of `T` tiles of `B` entries: the entries whose position is
    below `t * B`. -/
def partialSum {T B : ℕ} (f : Fin (T * B) → M) (t : ℕ) : M :=
  ∑ p : Fin (T * B), if p.val < t * B then f p else 0

/-- No tile, no entry: the partial sum starts at zero. -/
theorem partialSum_zero {T B : ℕ} (f : Fin (T * B) → M) : partialSum f 0 = 0 := by
  unfold partialSum
  refine Finset.sum_eq_zero fun p _ => ?_
  rw [if_neg]
  omega

/-- All `T` tiles hold every entry: the last partial sum is the full sum. -/
theorem partialSum_top {T B : ℕ} (f : Fin (T * B) → M) : partialSum f T = ∑ p, f p := by
  unfold partialSum
  exact Finset.sum_congr rfl fun p _ => if_pos p.isLt

/-- One more tile adds that tile's sum: positions `t * B ≤ p < (t + 1) * B` are exactly `t * B + i` for `i < B`. -/
theorem partialSum_succ {T B : ℕ} (f : Fin (T * B) → M) {t : ℕ} (ht : t < T) :
    partialSum f (t + 1)
      = partialSum f t + ∑ i : Fin B, f ⟨t * B + i.val, tile_idx_lt ht i.isLt⟩ := by
  unfold partialSum
  have hB : (t + 1) * B = t * B + B := Nat.succ_mul t B
  have hsplit : ∀ p : Fin (T * B), (if p.val < (t + 1) * B then f p else 0)
      = (if p.val < t * B then f p else 0)
        + (if t * B ≤ p.val ∧ p.val < (t + 1) * B then f p else 0) := by
    intro p
    by_cases h1 : p.val < t * B
    · have h2 : p.val < (t + 1) * B := by omega
      have h3 : ¬ (t * B ≤ p.val ∧ p.val < (t + 1) * B) := by omega
      rw [if_pos h1, if_pos h2, if_neg h3, add_zero]
    · by_cases h2 : p.val < (t + 1) * B
      · have h3 : t * B ≤ p.val ∧ p.val < (t + 1) * B := ⟨by omega, h2⟩
        rw [if_neg h1, if_pos h2, if_pos h3, zero_add]
      · have h3 : ¬ (t * B ≤ p.val ∧ p.val < (t + 1) * B) := fun h => h2 h.2
        rw [if_neg h1, if_neg h2, if_neg h3, add_zero]
  rw [Finset.sum_congr rfl (fun p _ => hsplit p), Finset.sum_add_distrib]
  congr 1
  rw [← Finset.sum_filter]
  symm
  refine Finset.sum_bij (fun i _ => (⟨t * B + i.val, tile_idx_lt ht i.isLt⟩ : Fin (T * B))) ?_ ?_ ?_ ?_
  · intro i _
    have hi := i.isLt
    simp only [Finset.mem_filter, Finset.mem_univ, true_and]
    constructor <;> omega
  · intro i _ j _ h
    have hv : t * B + i.val = t * B + j.val := congrArg Fin.val h
    exact Fin.ext (by omega)
  · intro p hp
    simp only [Finset.mem_filter, Finset.mem_univ, true_and] at hp
    refine ⟨⟨p.val - t * B, by omega⟩, Finset.mem_univ _, ?_⟩
    apply Fin.ext
    show t * B + (p.val - t * B) = p.val
    omega
  · intro i _
    rfl

/-- An accumulator that starts at zero and gains one tile's sum at each of `T` steps is, after `t ≤ T` steps, the partial
    sum of the first `t` tiles. -/
theorem acc_eq_partialSum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    ∀ t, t ≤ T → acc t = partialSum f t := by
  intro t
  induction t with
  | zero => intro _; rw [h0, partialSum_zero]
  | succ t ih =>
    intro ht
    have ht' : t < T := ht
    rw [hs t ht', partialSum_succ f ht', ih (Nat.le_of_lt ht')]

/-- … and after all `T` steps it is the full sum. -/
theorem acc_eq_sum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    acc T = ∑ p, f p := by
  rw [acc_eq_partialSum f acc h0 hs T (Nat.le_refl T), partialSum_top]

/-! The same at 62 tiles of 16384 entries, 62 * 16384 = 1015808. -/

/-- Entry `i` of tile `t` lies below 1015808. -/
theorem tile_idx_lt' (t : Fin 62) (i : Fin 16384) : t.val * 16384 + i.val < 1015808 := by
  have ht := t.isLt
  have hi := i.isLt
  omega

/-- The sum of the first `t` tiles of 16384 entries of a family of 1015808 entries. -/
def partialSum62 (f : Fin 1015808 → M) (t : ℕ) : M :=
  ∑ p : Fin 1015808, if p.val < t * 16384 then f p else 0

theorem partialSum62_eq (f : Fin 1015808 → M) (t : ℕ) :
    partialSum62 f t = partialSum (T := 62) (B := 16384) f t := rfl

/-- It starts at zero. -/
theorem partialSum62_zero (f : Fin 1015808 → M) : partialSum62 f 0 = 0 :=
  partialSum_zero (T := 62) (B := 16384) f

/-- Tile `t` adds its 16384 entries. -/
theorem partialSum62_succ (f : Fin 1015808 → M) (t : Fin 62) :
    partialSum62 f (t.val + 1)
      = partialSum62 f t.val + ∑ i : Fin 16384, f ⟨t.val * 16384 + i.val, tile_idx_lt' t i⟩ :=
  partialSum_succ (T := 62) (B := 16384) f t.isLt

/-- After 62 tiles it is the full sum. -/
theorem partialSum62_top (f : Fin 1015808 → M) : partialSum62 f 62 = ∑ p, f p :=
  partialSum_top (T := 62) (B := 16384) f

/-- An accumulator over 62 grid points that starts at zero and gains tile `t`'s sum at point `t` ends at the full sum over
    the 1015808 entries. -/
theorem acc62_eq_sum (f : Fin 1015808 → M) (acc : ℕ → M) (h0 : acc 0 = 0)
    (hs : ∀ t : Fin 62, acc (t.val + 1)
      = acc t.val + ∑ i : Fin 16384, f ⟨t.val * 16384 + i.val, tile_idx_lt' t i⟩) :
    acc 62 = ∑ p, f p :=
  acc_eq_sum (T := 62) (B := 16384) f acc h0 (fun t ht => hs ⟨t, ht⟩)

end Tiles

/-! ### Zero padding -/

section Pad

variable {M : Type*} [AddCommMonoid M]

/-- A family on `Fin n` extended by zeros to `Fin N`, `n ≤ N`, has the same sum. -/
theorem sum_pad {n N : ℕ} (hnN : n ≤ N) (g : Fin n → M) :
    (∑ p : Fin N, (if h : p.val < n then g ⟨p.val, h⟩ else 0)) = ∑ r : Fin n, g r := by
  have h1 : (∑ p : Fin N, (if h : p.val < n then g ⟨p.val, h⟩ else 0))
      = ∑ k ∈ Finset.range N, (if h : k < n then g ⟨k, h⟩ else 0) :=
    Fin.sum_univ_eq_sum_range (fun k => if h : k < n then g ⟨k, h⟩ else 0) N
  have h2 : (∑ r : Fin n, g r) = ∑ k ∈ Finset.range n, (if h : k < n then g ⟨k, h⟩ else 0) := by
    rw [← Fin.sum_univ_eq_sum_range (fun k => if h : k < n then g ⟨k, h⟩ else 0) n]
    exact Finset.sum_congr rfl fun r _ => by rw [dif_pos r.isLt]
  rw [h1, h2]
  symm
  refine Finset.sum_subset (fun k hk => Finset.mem_range.2 (lt_of_lt_of_le (Finset.mem_range.1 hk) hnN)) fun k _ hk => ?_
  have hkn : ¬ k < n := fun hlt => hk (Finset.mem_range.2 hlt)
  exact dif_neg hkn

/-- The same for a family of a position alone, cut off at `n`. -/
theorem sum_pad_nat {n N : ℕ} (hnN : n ≤ N) (g : ℕ → M) :
    (∑ p : Fin N, (if p.val < n then g p.val else 0)) = ∑ r : Fin n, g r.val := by
  rw [← sum_pad hnN (fun r : Fin n => g r.val)]
  exact Finset.sum_congr rfl fun p _ => by
    by_cases h : p.val < n
    · rw [if_pos h, dif_pos h]
    · rw [if_neg h, dif_neg h]

/-- 1,000,000 rows padded by zeros to 1,015,808 have the same sum. -/
theorem sum_pad_rows (g : Fin 1000000 → M) :
    (∑ p : Fin 1015808, (if h : p.val < 1000000 then g ⟨p.val, h⟩ else 0)) = ∑ r : Fin 1000000, g r :=
  sum_pad (by norm_num) g

/-- The same for a table of rows and columns, at a fixed column. -/
theorem sum_pad_rows₂ {κ : Type*} (g : Fin 1000000 → κ → M) (c : κ) :
    (∑ p : Fin 1015808, (if h : p.val < 1000000 then g ⟨p.val, h⟩ c else 0)) = ∑ r : Fin 1000000, g r c :=
  sum_pad_rows (fun r => g r c)

end Pad

end Cert.LibSums

end
-- ==== Proof.Ideal.Value2.lean ====
/- The pooling region as one function of whole arrays. At each grid point the tile adds to a running 1×64 row the column
   sums, over its 5000 rows, of m(p, j) · d(p) + b(j); the row is cleared at the first point, so after the last of the 20
   points entry j holds the sum of that expression over all 100000 rows (a sum of extended reals may be regrouped tile by
   tile: addition is commutative and associative). The last point stores the row times the named reciprocal 1/100000.
   The host divides the same column sum by 100000, which on every extended real is the product with 1/100000. -/
import proofs.«146874_j75788992905450_1_alg».proof.Proof.Ideal.Tile2
import proofs.«146874_j75788992905450_1_alg».proof.Proof.Ideal.Value1
import proofs.«146874_j75788992905450_1_alg».proof.Proof.LibGcnLaws
import proofs.«146874_j75788992905450_1_alg».proof.Proof.LibSums
import Idealize.ShloMosaic.PureOps.IdealRules
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pool

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat)

/-! ## What each case of the body leaves, as payloads of the blocks -/

section Pieces
variable {F : FTy → Type} [FloatOps F] [Named F]

/-- First point: the running row is the tile's sums added to the cleared row. -/
theorem sout2_A_eq (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i) (x0 : Vec F S5000x64 .f32) (x1 : Vec F S5000x1 .f32) (x2 : Vec F S1x64 .f32) :
    sout2_A_0 c i arg1 harg1 arg2 harg2 arg3 harg3 arg4 harg4 arg5 harg5 hc0 hc1 x0 x1 x2 = k2_pay2 x0 x1 x2 (k2_pay1 (F := F)) := by
  unfold sout2_A_0
  rw [View.read_writes_eq_canon _ _ _ (scover2_A_0 c i arg1 harg1 arg2 harg2 arg3 harg3 arg4 harg4 arg5 harg5 hc0 hc1 x0 x1 x2)]
  unfold kernelRun2_A
  dsimp only
  sl_unfold_words
  rw [View.canon_cons_unit_zero (S := S1x64) hz, View.readCov_unit_zero (S := S1x64) _ hz]
  simp only [View.readAt_eq_ld, harg1.read_unread, harg2.read_unread, harg3.read_unread, View.ld_unit_zero (S := S5000x64) hz, View.ld_unit_zero (S := S5000x1) hz, View.ld_unit_zero (S := S1x64) hz]

/-- Middle points: the running row is the tile's sums added to the row the point before left. -/
theorem sout2_B_eq (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i) (x0 : Vec F S5000x64 .f32) (x1 : Vec F S5000x1 .f32) (x2 : Vec F S1x64 .f32) (xs0 : Vec F S1x64 .f32) :
    sout2_B_0 c i arg1 harg1 arg2 harg2 arg3 harg3 arg4 harg4 arg5 harg5 hc0 hc1 x0 x1 x2 xs0 = k2_pay2 x0 x1 x2 xs0 := by
  unfold sout2_B_0
  rw [View.read_writes_eq_canon _ _ _ (scover2_B_0 c i arg1 harg1 arg2 harg2 arg3 harg3 arg4 harg4 arg5 harg5 hc0 hc1 x0 x1 x2 xs0)]
  unfold kernelRun2_B
  dsimp only
  sl_unfold_words
  rw [View.canon_unit_zero (S := S1x64) hz]
  simp only [View.readAt_eq_ld, harg1.read_unread, harg2.read_unread, harg3.read_unread, harg5.read_unread, View.ld_unit_zero (S := S5000x64) hz, View.ld_unit_zero (S := S5000x1) hz, View.ld_unit_zero (S := S1x64) hz]

/-- Last point: the same for the running row, -/
theorem sout2_C_eq (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i) (x0 : Vec F S5000x64 .f32) (x1 : Vec F S5000x1 .f32) (x2 : Vec F S1x64 .f32) (xs0 : Vec F S1x64 .f32) :
    sout2_C_0 c i arg1 harg1 arg2 harg2 arg3 harg3 arg4 harg4 arg5 harg5 hc0 hc1 x0 x1 x2 xs0 = k2_pay2 x0 x1 x2 xs0 := by
  unfold sout2_C_0
  rw [View.read_writes_eq_canon _ _ _ (scover2_C_0 c i arg1 harg1 arg2 harg2 arg3 harg3 arg4 harg4 arg5 harg5 hc0 hc1 x0 x1 x2 xs0)]
  unfold kernelRun2_C
  dsimp only
  sl_unfold_words
  rw [View.canon_unit_zero (S := S1x64) hz]
  simp only [View.readAt_eq_ld, harg1.read_unread, harg2.read_unread, harg3.read_unread, harg5.read_unread, View.ld_unit_zero (S := S5000x64) hz, View.ld_unit_zero (S := S5000x1) hz, View.ld_unit_zero (S := S1x64) hz]

/-- and the output block is that row scaled. -/
theorem out2_C_eq (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i) (x0 : Vec F S5000x64 .f32) (x1 : Vec F S5000x1 .f32) (x2 : Vec F S1x64 .f32) (xs0 : Vec F S1x64 .f32) :
    out2_C_3 c i arg1 harg1 arg2 harg2 arg3 harg3 arg4 harg4 arg5 harg5 hc0 hc1 x0 x1 x2 xs0 = k2_pay3 (k2_pay2 x0 x1 x2 xs0) := by
  unfold out2_C_3
  rw [View.read_writes_eq_canon _ _ _ (cover2_C_3 c i arg1 harg1 arg2 harg2 arg3 harg3 arg4 harg4 arg5 harg5 hc0 hc1 x0 x1 x2 xs0)]
  unfold kernelRun2_C
  dsimp only
  sl_unfold_words
  rw [View.canon_unit_zero (S := S1x64) hz, View.readCov_unit_zero (S := S1x64) _ hz]
  simp only [View.readAt_eq_ld, harg1.read_unread, harg2.read_unread, harg3.read_unread, harg5.read_unread, View.ld_unit_zero (S := S5000x64) hz, View.ld_unit_zero (S := S5000x1) hz, View.ld_unit_zero (S := S1x64) hz]

end Pieces

/-! ## The payloads at an index, on the extended reals -/

/-- The cleared row reads zero. -/
theorem pay2_zero (q : Fin 64) : k2_pay1 (F := Ideal) (ix2 (0 : Fin 1) q) = 0 := by
  unfold k2_pay1
  simp only [shapeCast_self]
  exact Ideal.ofBits_zero_f32

/-- The updated row at entry j: the entering row's entry plus the sum over the tile's rows of m(p, j) · d(p) + b(j). -/
theorem pay2_apply (x0 : Vec Ideal S5000x64 .f32) (x1 : Vec Ideal S5000x1 .f32) (x2 : Vec Ideal S1x64 .f32) (acc : Vec Ideal S1x64 .f32) (q : Fin 64) :
    k2_pay2 (F := Ideal) x0 x1 x2 acc (ix2 (0 : Fin 1) q)
      = acc (ix2 (0 : Fin 1) q) + ∑ p : Fin 5000, (x0 (ix2 p q) * x1 (ix2 p (0 : Fin 1)) + x2 (ix2 (0 : Fin 1) q)) := by
  unfold k2_pay2
  simp only [shapeCast_self]
  rw [addf_apply, shapeCast_a_1a_apply]
  refine congrArg (acc (ix2 (0 : Fin 1) q) + ·) ?_
  refine (Ideal.multiReduction_add_single _ _ reduces_S5000x64_S64 _ _ (ix1 q)).trans ?_
  show ∑ p : Fin 5000, _ = _
  refine Finset.sum_congr rfl fun p _ => ?_
  have hl : reduces_S5000x64_S64.lift (ix1 q) p = ix2 p q := funext fun a => Fin.ext (by match a with | ⟨0, _⟩ => rfl | ⟨1, _⟩ => rfl)
  rw [hl, addf_apply, mulf_apply, Keepdims.broadcastTo_a1_ab_apply, broadcastTo_1b_ab_apply]

/-- The named reciprocal of the node count is the rational 1/100000. -/
theorem inv_n : Named.named (F := Ideal) κ "inv_100000" (φ := .f32) 0x3727C5AC#32 = ((1 / 100000 : ℝ) : EReal) :=
  IdealRules.named_const.ideal_named_scalar _ _ _ _ rfl

/-- The stored mean at entry j: the row's entry times 1/100000. -/
theorem pay3_apply (v : Vec Ideal S1x64 .f32) (q : Fin 64) :
    k2_pay3 (F := Ideal) v (ix2 (0 : Fin 1) q) = v (ix2 (0 : Fin 1) q) * ((1 / 100000 : ℝ) : EReal) := by
  unfold k2_pay3
  rw [mulf_apply, broadcast_apply, inv_n]

/-! ## The host-style pooling -/

/-- The host-style affine image of the second aggregate. -/
def A2 (hb : (⟨2, ![100000, 1]⟩ : Shape).BroadcastsInDim ⟨2, ![100000, 64]⟩ (![0, 1] : Fin 2 → Fin 2))
    (hr : (⟨2, ![1, 64]⟩ : Shape).BroadcastsInDim ⟨2, ![100000, 64]⟩ (![0, 1] : Fin 2 → Fin 2))
    (M : FVec Ideal ⟨2, ![100000, 64]⟩ .f32) (cd : FVec Ideal ⟨2, ![100000, 1]⟩ .f32) (b : FVec Ideal ⟨2, ![1, 64]⟩ .f32) :
    FVec Ideal ⟨2, ![100000, 64]⟩ .f32 :=
  addf (GcnLaws.scale hb M cd) (broadcastInDim ⟨2, ![100000, 64]⟩ (![0, 1] : Fin 2 → Fin 2) hr b)

theorem A2_apply (hb : (⟨2, ![100000, 1]⟩ : Shape).BroadcastsInDim ⟨2, ![100000, 64]⟩ (![0, 1] : Fin 2 → Fin 2))
    (hr : (⟨2, ![1, 64]⟩ : Shape).BroadcastsInDim ⟨2, ![100000, 64]⟩ (![0, 1] : Fin 2 → Fin 2))
    (M : FVec Ideal ⟨2, ![100000, 64]⟩ .f32) (cd : FVec Ideal ⟨2, ![100000, 1]⟩ .f32) (b : FVec Ideal ⟨2, ![1, 64]⟩ .f32)
    (r : Fin 100000) (q : Fin 64) :
    A2 hb hr M cd b (ix2 r q) = M (ix2 r q) * cd (ix2 r (0 : Fin 1)) + b (ix2 (0 : Fin 1) q) := by
  unfold A2
  rw [addf_apply, GcnLaws.scale_apply hb M cd r q, GcnLaws.rowDown_apply hr b r q]

/-- The host's mean over the nodes: the column sums of the affine image, kept as a row, divided by the node count. -/
def H2 (hRT : (⟨2, ![100000, 64]⟩ : Shape).ReducesTo [(0 : Fin 2)] ⟨1, ![64]⟩) (hS : 0 < (⟨0, ![]⟩ : Shape).numel)
    (h1 : (⟨1, ![64]⟩ : Shape).BroadcastsInDim ⟨2, ![1, 64]⟩ (![1] : Fin 1 → Fin 2))
    (hc : (⟨0, ![]⟩ : Shape).BroadcastsInDim ⟨2, ![1, 64]⟩ (![] : Fin 0 → Fin 2))
    (hb : (⟨2, ![100000, 1]⟩ : Shape).BroadcastsInDim ⟨2, ![100000, 64]⟩ (![0, 1] : Fin 2 → Fin 2))
    (hr : (⟨2, ![1, 64]⟩ : Shape).BroadcastsInDim ⟨2, ![100000, 64]⟩ (![0, 1] : Fin 2 → Fin 2))
    (M : FVec Ideal ⟨2, ![100000, 64]⟩ .f32) (cd : FVec Ideal ⟨2, ![100000, 1]⟩ .f32) (b : FVec Ideal ⟨2, ![1, 64]⟩ .f32) :
    FVec Ideal ⟨2, ![1, 64]⟩ .f32 :=
  Host.divf (broadcastInDim ⟨2, ![1, 64]⟩ (![1] : Fin 1 → Fin 2) h1
      (Host.reduceAdd (F := Ideal) (A2 hb hr M cd b) (constant (F := Ideal) ⟨0, ![]⟩ .f32 0x00000000#32) hRT hS))
    (broadcastInDim ⟨2, ![1, 64]⟩ (![] : Fin 0 → Fin 2) hc (constant (F := Ideal) ⟨0, ![]⟩ .f32 0x47C35000#32))

/-- The word 0x47C35000 denotes the real 100000. -/
theorem ofBits_100000 : Ideal.ofBits .f32 0x47C35000#32 = ((100000 : ℝ) : EReal) := by
  simp [Ideal.ofBits, Ideal.ieee, -EReal.coe_mul]; norm_num

theorem H2_apply (hRT : (⟨2, ![100000, 64]⟩ : Shape).ReducesTo [(0 : Fin 2)] ⟨1, ![64]⟩) (hS : 0 < (⟨0, ![]⟩ : Shape).numel)
    (h1 : (⟨1, ![64]⟩ : Shape).BroadcastsInDim ⟨2, ![1, 64]⟩ (![1] : Fin 1 → Fin 2))
    (hc : (⟨0, ![]⟩ : Shape).BroadcastsInDim ⟨2, ![1, 64]⟩ (![] : Fin 0 → Fin 2))
    (hb : (⟨2, ![100000, 1]⟩ : Shape).BroadcastsInDim ⟨2, ![100000, 64]⟩ (![0, 1] : Fin 2 → Fin 2))
    (hr : (⟨2, ![1, 64]⟩ : Shape).BroadcastsInDim ⟨2, ![100000, 64]⟩ (![0, 1] : Fin 2 → Fin 2))
    (M : FVec Ideal ⟨2, ![100000, 64]⟩ .f32) (cd : FVec Ideal ⟨2, ![100000, 1]⟩ .f32) (b : FVec Ideal ⟨2, ![1, 64]⟩ .f32) (q : Fin 64) :
    H2 hRT hS h1 hc hb hr M cd b (ix2 (0 : Fin 1) q)
      = (∑ r : Fin 100000, (M (ix2 r q) * cd (ix2 r (0 : Fin 1)) + b (ix2 (0 : Fin 1) q))) * ((1 / 100000 : ℝ) : EReal) := by
  unfold H2
  show Ideal.div _ _ = _
  rw [broadcastInDim_apply _ h1 _ (ix2 (0 : Fin 1) q) (ix1 q) (fun a => match a with
      | ⟨0, _⟩ => by show q.val = if (64 : Nat) = 1 then 0 else q.val; rw [if_neg (by decide)]),
    broadcastInDim_apply _ hc _ (ix2 (0 : Fin 1) q) (fun a => a.elim0) (fun a => a.elim0), constant_apply, ofBits_100000,
    Ideal.div_coe (by norm_num : (100000 : ℝ) ≠ 0)]
  refine congrArg (· * ((1 / 100000 : ℝ) : EReal)) ?_
  simp only [Host.reduceAdd, Ideal.hostReduceAdd_def]
  rw [Ideal.hostReduceAdd_single hRT (by decide), constant_apply, Ideal.ofBits_zero_f32, zero_add]
  show ∑ r : Fin 100000, _ = _
  refine Finset.sum_congr rfl fun r _ => ?_
  exact (congrArg (A2 hb hr M cd b) (funext fun a => Fin.ext (by match a with | ⟨0, _⟩ => rfl | ⟨1, _⟩ => rfl))).trans (A2_apply hb hr M cd b r q)

/-! ## One row's summand and one tile's sum, over plain arrays -/

/-- Row r's summand at column j, for an aggregate M, a destination column d and a bias row b. -/
def termOf (M : FVec Ideal ⟨2, ![100000, 64]⟩ .f32) (cd : FVec Ideal ⟨2, ![100000, 1]⟩ .f32) (b : FVec Ideal ⟨2, ![1, 64]⟩ .f32)
    (q : Fin 64) (r : Fin (20 * 5000)) : EReal :=
  M (ix2 (⟨r.val, r.isLt⟩ : Fin 100000) q) * cd (ix2 (⟨r.val, r.isLt⟩ : Fin 100000) (0 : Fin 1)) + b (ix2 (0 : Fin 1) q)

/-- A tile's summand at its row p and column j. -/
def tileTerm (x0 : Vec Ideal S5000x64 .f32) (x1 : Vec Ideal S5000x1 .f32) (x2 : Vec Ideal S1x64 .f32) (q : Fin 64) (p : Fin 5000) : EReal :=
  x0 (ix2 p q) * x1 (ix2 p (0 : Fin 1)) + x2 (ix2 (0 : Fin 1) q)

/-- A tile whose blocks are rows 5000·t + p of the whole arrays sums the whole arrays' summands over those rows. -/
theorem tile_sum_of (x0 : Vec Ideal S5000x64 .f32) (x1 : Vec Ideal S5000x1 .f32) (x2 : Vec Ideal S1x64 .f32)
    (M : FVec Ideal ⟨2, ![100000, 64]⟩ .f32) (cd : FVec Ideal ⟨2, ![100000, 1]⟩ .f32) (b : FVec Ideal ⟨2, ![1, 64]⟩ .f32)
    (q : Fin 64) (t : ℕ) (ht : t < 20)
    (h0 : ∀ p : Fin 5000, x0 (ix2 p q) = M (ix2 (rowOf t ht p) q))
    (h1 : ∀ p : Fin 5000, x1 (ix2 p (0 : Fin 1)) = cd (ix2 (rowOf t ht p) (0 : Fin 1)))
    (h2 : x2 (ix2 (0 : Fin 1) q) = b (ix2 (0 : Fin 1) q)) :
    (∑ p : Fin 5000, tileTerm x0 x1 x2 q p)
      = ∑ i : Fin 5000, termOf M cd b q ⟨t * 5000 + i.val, Cert.LibSums.tile_idx_lt ht i.isLt⟩ := by
  refine Finset.sum_congr rfl fun p _ => ?_
  unfold tileTerm termOf
  rw [h0 p, h1 p, h2]
  rfl

/-! ## The blocks of the pooling region -/

theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

section
variable (V : (c : Dev nD) → (b : Ref sig .tc) → Buf (Elt Ideal) ((c : Thread nD τ).loc b))

theorem blk2_0 (c : Dev nD) (t : Fin cfg2.N) (hN : t.val < 20) (p : Fin 5000) (q : Fin 64) :
    iblk2 V c 0 t (ix2 p q) = V c main_v38 (ix2 (rowOf t.val hN p) q) := by
  obtain ⟨e00, e01, -, -, -, -, -, -⟩ := idx2 t
  show V c main_v38 (((cfg2.win 0).blk t).view.emb (ix2 p q)) = _
  refine congrArg _ (funext fun a => Fin.ext ?_)
  match a with
  | ⟨0, _⟩ => show win2_0.index t (0 : Fin 2) * 5000 + 1 * p.val = t.val * 5000 + p.val; rw [e00]; omega
  | ⟨1, _⟩ => show win2_0.index t (1 : Fin 2) * 64 + 1 * q.val = q.val; rw [e01]; omega

theorem blk2_1 (c : Dev nD) (t : Fin cfg2.N) (hN : t.val < 20) (p : Fin 5000) :
    iblk2 V c 1 t (ix2 p (0 : Fin 1)) = V c main_v14 (ix2 (rowOf t.val hN p) (0 : Fin 1)) := by
  obtain ⟨-, -, e10, e11, -, -, -, -⟩ := idx2 t
  show V c main_v14 (((cfg2.win 1).blk t).view.emb (ix2 p (0 : Fin 1))) = _
  refine congrArg _ (funext fun a => Fin.ext ?_)
  match a with
  | ⟨0, _⟩ => show win2_1.index t (0 : Fin 2) * 5000 + 1 * p.val = t.val * 5000 + p.val; rw [e10]; omega
  | ⟨1, _⟩ => show win2_1.index t (1 : Fin 2) * 1 + 1 * 0 = 0; rw [e11]

theorem blk2_2 (c : Dev nD) (t : Fin cfg2.N) (q : Fin 64) :
    iblk2 V c 2 t (ix2 (0 : Fin 1) q) = V c main_v16 (ix2 (0 : Fin 1) q) := by
  obtain ⟨-, -, -, -, e20, e21, -, -⟩ := idx2 t
  show V c main_v16 (((cfg2.win 2).blk t).view.emb (ix2 (0 : Fin 1) q)) = _
  refine congrArg _ (funext fun a => Fin.ext ?_)
  match a with
  | ⟨0, _⟩ => show win2_2.index t (0 : Fin 2) * 1 + 1 * 0 = 0; rw [e20]
  | ⟨1, _⟩ => show win2_2.index t (1 : Fin 2) * 64 + 1 * q.val = q.val; rw [e21]; omega

/-! ## The running row, point by point -/

/-- The running row after the body at position n. -/
def rowAt (c : Dev nD) (n : ℕ) (hn : n < cfg2.N) : Vec Ideal S1x64 .f32 := (outsAt2 V c n hn).2

theorem rowAt_zero (c : Dev nD) (hn : 0 < cfg2.N) :
    rowAt V c 0 hn = k2_pay2 (iblk2 V c 0 ⟨0, hn⟩) (iblk2 V c 1 ⟨0, hn⟩) (iblk2 V c 2 ⟨0, hn⟩) (k2_pay1 (F := Ideal)) := by
  show (outsAt2 V c (⟨0, hn⟩ : Fin cfg2.N).val (⟨0, hn⟩ : Fin cfg2.N).isLt).2 = _
  rw [outsAt2_A V c ⟨0, hn⟩ (show (0 : ℕ) % 20 = 0 by decide) (show ¬(0 : ℕ) % 20 = 19 by decide)]
  dsimp only
  exact sout2_A_eq (F := Ideal) c _ _ _ _ _ _ _ _ _ _ _ _ _ _ _ _

theorem rowAt_succ (c : Dev nD) (n : ℕ) (hn : n + 1 < cfg2.N) :
    rowAt V c (n + 1) hn = k2_pay2 (iblk2 V c 0 ⟨n + 1, hn⟩) (iblk2 V c 1 ⟨n + 1, hn⟩) (iblk2 V c 2 ⟨n + 1, hn⟩) (rowAt V c n (Nat.lt_of_succ_lt hn)) := by
  have hN : n + 1 < 20 := lt_of_lt_of_eq hn (show cfg2.N = 20 from N_2)
  have h0 : ¬(n + 1) % 20 = 0 := by omega
  unfold rowAt
  by_cases h1 : (n + 1) % 20 = 19
  · rw [outsAt2_C V c ⟨n + 1, hn⟩ h0 h1]
    dsimp only
    exact sout2_C_eq (F := Ideal) c _ _ _ _ _ _ _ _ _ _ _ _ _ _ _ _ _
  · rw [outsAt2_B V c ⟨n + 1, hn⟩ h0 h1]
    dsimp only
    exact sout2_B_eq (F := Ideal) c _ _ _ _ _ _ _ _ _ _ _ _ _ _ _ _ _

/-- The output block after the last point: the last row scaled. -/
theorem outAt_last (c : Dev nD) (hn : 19 < cfg2.N) :
    (outsAt2 V c 19 hn).1 = k2_pay3 (rowAt V c 19 hn) := by
  rw [outsAt2_C V c ⟨19, hn⟩ (show ¬(19 : ℕ) % 20 = 0 by decide) (show (19 : ℕ) % 20 = 19 by decide)]
  dsimp only
  refine (out2_C_eq (F := Ideal) c _ _ _ _ _ _ _ _ _ _ _ _ _ _ _ _ _).trans ?_
  refine congrArg k2_pay3 ?_
  exact ((rowAt_succ V c 18 hn)).symm

/-- Row r's summand at column j: the affine image of the aggregate found on entry. -/
def term (c : Dev nD) (q : Fin 64) (r : Fin (20 * 5000)) : EReal :=
  termOf (V c main_v38) (V c main_v14) (V c main_v16) q r

/-- Entry j of the running row before position t: zero before the first point, then what position t − 1 left. -/
def accAt (c : Dev nD) (q : Fin 64) (t : ℕ) : EReal :=
  if h : 0 < t ∧ t - 1 < cfg2.N then rowAt V c (t - 1) h.2 (ix2 (0 : Fin 1) q) else 0

/-- One tile's sum, written over the arrays found on entry. -/
theorem tile_sum (c : Dev nD) (q : Fin 64) (t : ℕ) (ht : t < 20) (hn : t < cfg2.N) :
    (∑ p : Fin 5000, tileTerm (iblk2 V c 0 ⟨t, hn⟩) (iblk2 V c 1 ⟨t, hn⟩) (iblk2 V c 2 ⟨t, hn⟩) q p)
      = ∑ i : Fin 5000, term V c q ⟨t * 5000 + i.val, Cert.LibSums.tile_idx_lt ht i.isLt⟩ :=
  tile_sum_of (iblk2 V c 0 ⟨t, hn⟩) (iblk2 V c 1 ⟨t, hn⟩) (iblk2 V c 2 ⟨t, hn⟩) (V c main_v38) (V c main_v14) (V c main_v16) q t ht
    (fun p => blk2_0 V c ⟨t, hn⟩ ht p q) (fun p => blk2_1 V c ⟨t, hn⟩ ht p) (blk2_2 V c ⟨t, hn⟩ q)

/-- After the last point entry j of the running row is the sum over all 100000 rows. -/
theorem row_last (c : Dev nD) (q : Fin 64) (hn : 19 < cfg2.N) :
    rowAt V c 19 hn (ix2 (0 : Fin 1) q) = ∑ r : Fin (20 * 5000), term V c q r := by
  have hN : cfg2.N = 20 := N_2
  have key := Cert.LibSums.acc_eq_sum (T := 20) (B := 5000) (term V c q) (accAt V c q)
    (by unfold accAt; rw [dif_neg (by omega)])
    (fun t ht => by
      have hn' : t < cfg2.N := by omega
      unfold accAt
      rw [dif_pos (show 0 < t + 1 ∧ t + 1 - 1 < cfg2.N from ⟨by omega, by omega⟩)]
      cases t with
      | zero =>
        rw [dif_neg (by omega)]
        show rowAt V c 0 hn' (ix2 (0 : Fin 1) q) = _
        rw [rowAt_zero V c hn', pay2_apply, pay2_zero]
        exact congrArg (0 + ·) (tile_sum V c q 0 ht hn')
      | succ n =>
        rw [dif_pos (show 0 < n + 1 ∧ n + 1 - 1 < cfg2.N from ⟨by omega, by omega⟩)]
        show rowAt V c (n + 1) hn' (ix2 (0 : Fin 1) q) = rowAt V c n _ (ix2 (0 : Fin 1) q) + _
        rw [rowAt_succ V c n hn', pay2_apply]
        exact congrArg (rowAt V c n _ (ix2 (0 : Fin 1) q) + ·) (tile_sum V c q (n + 1) ht hn'))
  have h20 : accAt V c q 20 = rowAt V c 19 hn (ix2 (0 : Fin 1) q) := by
    unfold accAt; rw [dif_pos (show 0 < 20 ∧ 20 - 1 < cfg2.N from ⟨by omega, by omega⟩)]
  rw [← h20]; exact key

/-! ## The output array -/

variable (hRT : (⟨2, ![100000, 64]⟩ : Shape).ReducesTo [(0 : Fin 2)] ⟨1, ![64]⟩) (hS : 0 < (⟨0, ![]⟩ : Shape).numel)
variable (h1 : (⟨1, ![64]⟩ : Shape).BroadcastsInDim ⟨2, ![1, 64]⟩ (![1] : Fin 1 → Fin 2))
variable (hc : (⟨0, ![]⟩ : Shape).BroadcastsInDim ⟨2, ![1, 64]⟩ (![] : Fin 0 → Fin 2))
variable (hb : (⟨2, ![100000, 1]⟩ : Shape).BroadcastsInDim ⟨2, ![100000, 64]⟩ (![0, 1] : Fin 2 → Fin 2))
variable (hr : (⟨2, ![1, 64]⟩ : Shape).BroadcastsInDim ⟨2, ![100000, 64]⟩ (![0, 1] : Fin 2 → Fin 2))

/-- WHAT THE LAST POINT WRITES BACK is the host's mean of the arrays found on entry (the window's one block is the whole array). -/
theorem flushed2_eq (c : Dev nD) (t : Fin cfg2.N) (hf : (cfg2.win 3).flush t = true) :
    (dat2 V c).flushed 3 t = ((cfg2.win 3).blk t).view.read (Elt Ideal)
      (H2 hRT hS h1 hc hb hr (V c main_v38) (V c main_v14) (V c main_v16)) := by
  have hN : t.val < 20 := lt_of_lt_of_eq t.isLt (show cfg2.N = 20 from N_2)
  have h19 : t.val = 19 := by have := (flush2_3 t).mp hf; omega
  obtain ⟨t, ht⟩ := t
  subst h19
  show (cfg2.win 3).cut (grid2.coords ⟨19, ht⟩) ((dat2 V c).after 3 ⟨19, ht⟩) = _
  rw [after2_3]
  show (outsAt2 V c 19 ht).1 = _
  rw [outAt_last V c ht]
  obtain ⟨-, -, -, -, -, -, e30, e31⟩ := idx2 ⟨19, ht⟩
  funext j
  obtain ⟨u, q, rfl⟩ : ∃ (u : Fin 1) (q : Fin 64), j = ix2 u q := ⟨j 0, j 1, eq_ix2 j⟩
  obtain rfl : u = 0 := Subsingleton.elim _ _
  rw [pay3_apply, row_last V c q ht]
  show _ = H2 hRT hS h1 hc hb hr (V c main_v38) (V c main_v14) (V c main_v16) (((cfg2.win 3).blk ⟨19, ht⟩).view.emb (ix2 (0 : Fin 1) q))
  have hemb : ((cfg2.win 3).blk ⟨19, ht⟩).view.emb (ix2 (0 : Fin 1) q) = ix2 (0 : Fin 1) q := funext fun a => Fin.ext (by
    match a with
    | ⟨0, _⟩ => show win2_3.index ⟨19, ht⟩ (0 : Fin 2) * 1 + 1 * 0 = 0; rw [e30]
    | ⟨1, _⟩ => show win2_3.index ⟨19, ht⟩ (1 : Fin 2) * 64 + 1 * q.val = q.val; rw [e31]; omega)
  rw [hemb, H2_apply]
  refine congrArg (· * ((1 / 100000 : ℝ) : EReal)) ?_
  exact Fintype.sum_equiv (finCongr (by norm_num : 20 * 5000 = 100000)) _ _ (fun r => rfl)

theorem mem_blk2_3 (t : Fin cfg2.N) (i : S1x64.Idx) :
    i ∈ ((cfg2.win 3).blk t).view.set ↔ ∀ a : Fin 2, win2_3.index t a * S1x64.size a ≤ (i a).val ∧ (i a).val < win2_3.index t a * S1x64.size a + S1x64.size a := by
  show i ∈ ((View.whole main_v39).slice (win2_3.rect t)).set ↔ _
  rw [View.set_slice_whole, Rect.mem_set_unit]
  exact Iff.rfl

theorem cover2 (i : S1x64.Idx) :
    ∃ t : Fin cfg2.N, (cfg2.win 3).flush t = true ∧ i ∈ ((cfg2.win 3).blk t).view.set := by
  have hi0 : (i 0).val < 1 := (i 0).isLt
  have hi1 : (i 1).val < 64 := (i 1).isLt
  have hN : cfg2.N = 20 := N_2
  refine ⟨⟨19, by rw [hN]; omega⟩, (flush2_3 _).mpr (show (19 : ℕ) % 20 = 19 by decide), ?_⟩
  rw [mem_blk2_3]
  obtain ⟨-, -, -, -, -, -, e30, e31⟩ := idx2 ⟨19, by rw [hN]; omega⟩
  intro a
  match a with
  | ⟨0, _⟩ => show win2_3.index _ (0 : Fin 2) * 1 ≤ (i 0).val ∧ (i 0).val < win2_3.index _ (0 : Fin 2) * 1 + 1; rw [e30]; omega
  | ⟨1, _⟩ => show win2_3.index _ (1 : Fin 2) * 64 ≤ (i 1).val ∧ (i 1).val < win2_3.index _ (1 : Fin 2) * 64 + 64; rw [e31]; omega

/-- THE RESULT ARRAY after the pooling region: the host's mean of the arrays found on entry. -/
theorem final2 (c : Dev nD) :
    (dat2 V c).arrAt 3 cfg2.N = H2 hRT hS h1 hc hb hr (V c main_v38) (V c main_v14) (V c main_v16) :=
  (dat2 V c).arrAt_eq_of_cover 3 _ (fun t hf => flushed2_eq V hRT hS h1 hc hb hr c t hf) (cover2)

end

end Cert.KernelIdeal.Pool

end
-- ==== Proof.Ideal.BridgeA.lean ====
/- The bridge, first part: what the first region finds on entry is the reference's scalings, bias rows and arguments. -/
import proofs.«146874_j75788992905450_1_alg».proof.Proof.Ideal.Run
import proofs.«146874_j75788992905450_1_alg».proof.Proof.Ideal.Value2
import proofs.«146874_j75788992905450_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Bridge

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat)

open Cert.KernelIdeal.Pool

variable (m : (ℓ : Loc nD τ sig) → Buf (Elt Ideal) ℓ) (ρ : Dev nD → PrngReg) (c : Dev nD)

/-! ## The reference's two products are plain products -/

theorem plainR1 : PlainDot.IsPlain Cert.ReferenceIdeal.dot_S100000x128_S128x128_S100000x128_1_0_0_1_n_n :=
  ⟨rfl, rfl, Cert.ReferenceIdeal.Read.lhs_main_v16_0, Cert.ReferenceIdeal.Read.lhs_main_v16_1, Cert.ReferenceIdeal.Read.rhs_main_v16_0, Cert.ReferenceIdeal.Read.rhs_main_v16_1⟩
theorem plainR2 : PlainDot.IsPlain Cert.ReferenceIdeal.dot_S100000x128_S128x64_S100000x64_1_0_0_1_n_n :=
  ⟨rfl, rfl, Cert.ReferenceIdeal.Read.lhs_main_v37_0, Cert.ReferenceIdeal.Read.lhs_main_v37_1, Cert.ReferenceIdeal.Read.rhs_main_v37_0, Cert.ReferenceIdeal.Read.rhs_main_v37_1⟩

/-! ## The host stretches before the first region, one at a time

Each stretch is read over the contents it is entered from, taken as they are; the degree count over all edges is never
opened. -/

/-- The degree count of an index vector: ones added at its entries. -/
def degOf (x : (⟨S1600000, .i32⟩ : BufTy).Contents (Elt Ideal)) : FVec Ideal S100000 .f32 :=
  (Host.scatterAdd (F := Ideal) scatter_S100000_S1600000x1_S1600000_n_0_0_1 (broadcastInDim S100000 ![] bcast_S_S100000 (constant S_ .f32 0x00000000#32))
      (broadcastInDim S1600000x1 ![0] bcast_S1600000_S1600000x1_0 x) (broadcastInDim S1600000 ![] bcast_S_S1600000 (constant S_ .f32 0x3F800000#32)))

/-- The inverse-square-root scaling of a degree vector floored at one, in the kernel program's spelling. -/
def scaleOf (one : FVec Ideal S_ .f32) (d : FVec Ideal S100000 .f32) : FVec Ideal S100000 .f32 :=
  Host.powf (F := Ideal) (maximumf (broadcastInDim S100000 ![] bcast_S_S100000 (id one)) d)
    (broadcastInDim S100000 ![] bcast_S_S100000 (constant S_ .f32 0xBF000000#32))

/-- The first stretch leaves the constant one, -/
theorem w1_cst2 : W1 m ρ c (Proc.devRef .tc main_cst_2) = constant (F := Ideal) S_ .f32 0x3F800000#32 := by
  show StableHlo.after hostOps0 (W0 m ρ c) (Proc.devRef .tc main_cst_2) = _
  generalize W0 m ρ c = U
  dsimp only [hostOps0]
  after_results <;> rfl

/-- the out-degree count -/
theorem w1_v3 : W1 m ρ c (Proc.devRef .tc main_v3) = degOf (W0 m ρ c (Proc.devRef .tc main_arg1)) := by
  show StableHlo.after hostOps0 (W0 m ρ c) (Proc.devRef .tc main_v3) = _
  generalize W0 m ρ c = U
  dsimp only [hostOps0]
  after_results <;> rfl

/-- and the in-degree count. -/
theorem w1_v6 : W1 m ρ c (Proc.devRef .tc main_v6) = degOf (W0 m ρ c (Proc.devRef .tc main_arg2)) := by
  show StableHlo.after hostOps0 (W0 m ρ c) (Proc.devRef .tc main_v6) = _
  generalize W0 m ρ c = U
  dsimp only [hostOps0]
  after_results <;> rfl

/-- The first clip floors the out-degrees at one. -/
theorem w2_v7 : W2 m ρ c (Proc.devRef .tc main_v7) = maximumf (F := Ideal) (φ := .f32) (broadcastInDim S100000 ![] bcast_S_S100000 (id (W1 m ρ c (Proc.devRef .tc main_cst_2) : FVec Ideal S_ .f32))) (W1 m ρ c (Proc.devRef .tc main_v3) : FVec Ideal S100000 .f32) := by
  show StableHlo.after hostOps0_1 (W1 m ρ c) (Proc.devRef .tc main_v7) = _
  generalize W1 m ρ c = U
  dsimp only [hostOps0_1]
  after_results <;> rfl

/-- The source scaling, recast as a column. -/
theorem w3_v10 : W3 m ρ c (Proc.devRef .tc main_v10) = shapeCast S100000x1 (Host.powf (F := Ideal) (φ := .f32) (W2 m ρ c (Proc.devRef .tc main_v7) : FVec Ideal S100000 .f32) (broadcastInDim S100000 ![] bcast_S_S100000 (constant S_ .f32 0xBF000000#32))) shapeCasts_S100000_S100000x1 := by
  show StableHlo.after hostOps0_2 (W2 m ρ c) (Proc.devRef .tc main_v10) = _
  generalize W2 m ρ c = U
  dsimp only [hostOps0_2]
  after_results <;> rfl

/-- The constant one again. -/
theorem w3_cst4 : W3 m ρ c (Proc.devRef .tc main_cst_4) = constant (F := Ideal) S_ .f32 0x3F800000#32 := by
  show StableHlo.after hostOps0_2 (W2 m ρ c) (Proc.devRef .tc main_cst_4) = _
  generalize W2 m ρ c = U
  dsimp only [hostOps0_2]
  after_results <;> rfl

/-- The second clip floors the in-degrees at one. -/
theorem w4_v11 : W4 m ρ c (Proc.devRef .tc main_v11) = maximumf (F := Ideal) (φ := .f32) (broadcastInDim S100000 ![] bcast_S_S100000 (id (W3 m ρ c (Proc.devRef .tc main_cst_4) : FVec Ideal S_ .f32))) (W3 m ρ c (Proc.devRef .tc main_v6) : FVec Ideal S100000 .f32) := by
  show StableHlo.after hostOps0_3 (W3 m ρ c) (Proc.devRef .tc main_v11) = _
  generalize W3 m ρ c = U
  dsimp only [hostOps0_3]
  after_results <;> rfl

/-- The destination scaling, recast as a column. -/
theorem w5_v14 : W5 m ρ c (Proc.devRef .tc main_v14) = shapeCast S100000x1 (Host.powf (F := Ideal) (φ := .f32) (W4 m ρ c (Proc.devRef .tc main_v11) : FVec Ideal S100000 .f32) (broadcastInDim S100000 ![] bcast_S_S100000 (constant S_ .f32 0xBF000000#32))) shapeCasts_S100000_S100000x1 := by
  show StableHlo.after hostOps0_4 (W4 m ρ c) (Proc.devRef .tc main_v14) = _
  generalize W4 m ρ c = U
  dsimp only [hostOps0_4]
  after_results <;> rfl

/-- The two bias vectors, recast as rows. -/
theorem w5_v15 : W5 m ρ c (Proc.devRef .tc main_v15) = shapeCast S1x128 (W4 m ρ c (Proc.devRef .tc main_arg4) : FVec Ideal S128 .f32) shapeCasts_S128_S1x128 := by
  show StableHlo.after hostOps0_4 (W4 m ρ c) (Proc.devRef .tc main_v15) = _
  generalize W4 m ρ c = U
  dsimp only [hostOps0_4]
  after_results <;> rfl

theorem w5_v16 : W5 m ρ c (Proc.devRef .tc main_v16) = shapeCast S1x64 (W4 m ρ c (Proc.devRef .tc main_arg6) : FVec Ideal S64 .f32) shapeCasts_S64_S1x64 := by
  show StableHlo.after hostOps0_4 (W4 m ρ c) (Proc.devRef .tc main_v16) = _
  generalize W4 m ρ c = U
  dsimp only [hostOps0_4]
  after_results <;> rfl

/-- The scaling vector of an index vector in the kernel program's spelling is the reference's stage. -/
theorem scaleOf_src (x : (⟨S1600000, .i32⟩ : BufTy).Contents (Elt Ideal)) :
    scaleOf (constant (F := Ideal) S_ .f32 0x3F800000#32) (degOf x) = Cert.ReferenceIdeal.Read.val_main_v9 (F := Ideal) x := rfl
theorem scaleOf_dst (x : (⟨S1600000, .i32⟩ : BufTy).Contents (Elt Ideal)) :
    scaleOf (constant (F := Ideal) S_ .f32 0x3F800000#32) (degOf x) = Cert.ReferenceIdeal.Read.val_main_v12 (F := Ideal) x := rfl

/-! ## What the first region finds -/

/-- The source scaling as a column: the recast vector reads the entries the reference's spread vector reads. -/
theorem e5_csrc : E5 m ρ c main_v10 = Cert.ReferenceIdeal.Read.val_main_v13 (F := Ideal) (m ((c.tc : Thread nD τ).loc main_arg1)) := by
  have e : (E5 m ρ c main_v10 : S100000x1.Idx → EReal)
      = shapeCast S100000x1 (Cert.ReferenceIdeal.Read.val_main_v9 (F := Ideal) (m ((c.tc : Thread nD τ).loc main_arg1))) shapeCasts_S100000_S100000x1 := by
    show W5 m ρ c (Proc.devRef .tc main_v10) = _
    rw [W5_keep m ρ c main_v10 (by decide), W4_keep m ρ c main_v10 (by decide), w3_v10, w2_v7, w1_cst2, w1_v3, ← scaleOf_src]
    rfl
  rw [e, GcnLaws.colCast_eq_colSpread _ _ Cert.ReferenceIdeal.Facts₀.bcast_S100000_S100000x1_0]
  rfl

/-- The destination scaling as a column. -/
theorem e5_cdst : E5 m ρ c main_v14 = Cert.ReferenceIdeal.Read.val_main_v27 (F := Ideal) (m ((c.tc : Thread nD τ).loc main_arg2)) := by
  have e : (E5 m ρ c main_v14 : S100000x1.Idx → EReal)
      = shapeCast S100000x1 (Cert.ReferenceIdeal.Read.val_main_v12 (F := Ideal) (m ((c.tc : Thread nD τ).loc main_arg2))) shapeCasts_S100000_S100000x1 := by
    show W5 m ρ c (Proc.devRef .tc main_v14) = _
    rw [w5_v14, w4_v11, w3_cst4, W3_keep m ρ c main_v6 (by decide), W2_keep m ρ c main_v6 (by decide), w1_v6, ← scaleOf_dst]
    rfl
  rw [e, GcnLaws.colCast_eq_colSpread _ _ Cert.ReferenceIdeal.Facts₀.bcast_S100000_S100000x1_0]
  rfl

/-- An argument array is as launched before the last stretch. -/
theorem w4_arg (r : Ref sig .tc) (h0 : r ∉ hostOps0_W) (h1 : r ∉ hostOps0_1_W) (h2 : r ∉ hostOps0_2_W) (h3 : r ∉ hostOps0_3_W) :
    W4 m ρ c r = m ((c : Thread nD τ).loc r) :=
  (W4_keep m ρ c r h3).trans <| (W3_keep m ρ c r h2).trans <| (W2_keep m ρ c r h1).trans <| (W1_keep m ρ c r h0).trans rfl

/-- The two bias vectors as rows. -/
theorem e5_b1 : E5 m ρ c main_v15 = Cert.ReferenceIdeal.Read.val_main_v30 (F := Ideal) (m ((c.tc : Thread nD τ).loc main_arg4)) := by
  have e : (E5 m ρ c main_v15 : S1x128.Idx → EReal) = shapeCast S1x128 (m ((c.tc : Thread nD τ).loc main_arg4)) shapeCasts_S128_S1x128 := by
    show W5 m ρ c (Proc.devRef .tc main_v15) = _
    rw [w5_v15, w4_arg m ρ c main_arg4 (by decide) (by decide) (by decide) (by decide)]
  rw [e, GcnLaws.rowCast_eq_rowSpread _ _ Cert.ReferenceIdeal.Facts₀.bcast_S128_S1x128_1]
  rfl
theorem e5_b2 : E5 m ρ c main_v16 = Cert.ReferenceIdeal.Read.val_main_v51 (F := Ideal) (m ((c.tc : Thread nD τ).loc main_arg6)) := by
  have e : (E5 m ρ c main_v16 : S1x64.Idx → EReal) = shapeCast S1x64 (m ((c.tc : Thread nD τ).loc main_arg6)) shapeCasts_S64_S1x64 := by
    show W5 m ρ c (Proc.devRef .tc main_v16) = _
    rw [w5_v16, w4_arg m ρ c main_arg6 (by decide) (by decide) (by decide) (by decide)]
  rw [e, GcnLaws.rowCast_eq_rowSpread _ _ Cert.ReferenceIdeal.Facts₀.bcast_S64_S1x64_1]
  rfl

/-- An argument array is as launched when the first region is entered. -/
theorem w5_arg (r : Ref sig .tc) (h0 : r ∉ hostOps0_W) (h1 : r ∉ hostOps0_1_W) (h2 : r ∉ hostOps0_2_W) (h3 : r ∉ hostOps0_3_W) (h4 : r ∉ hostOps0_4_W) :
    W5 m ρ c r = m ((c : Thread nD τ).loc r) :=
  (W5_keep m ρ c r h4).trans <| (W4_keep m ρ c r h3).trans <| (W3_keep m ρ c r h2).trans <| (W2_keep m ρ c r h1).trans <| (W1_keep m ρ c r h0).trans rfl

theorem e5_x0 : E5 m ρ c main_arg0 = (m ((c.tc : Thread nD τ).loc main_arg0)) := w5_arg m ρ c main_arg0 (by decide) (by decide) (by decide) (by decide) (by decide)
theorem e5_x3 : E5 m ρ c main_arg3 = (m ((c.tc : Thread nD τ).loc main_arg3)) := w5_arg m ρ c main_arg3 (by decide) (by decide) (by decide) (by decide) (by decide)
theorem w5_x1 : W5 m ρ c main_arg1 = (m ((c.tc : Thread nD τ).loc main_arg1)) := w5_arg m ρ c main_arg1 (by decide) (by decide) (by decide) (by decide) (by decide)
theorem w5_x2 : W5 m ρ c main_arg2 = (m ((c.tc : Thread nD τ).loc main_arg2)) := w5_arg m ρ c main_arg2 (by decide) (by decide) (by decide) (by decide) (by decide)
theorem w5_x5 : W5 m ρ c main_arg5 = (m ((c.tc : Thread nD τ).loc main_arg5)) := w5_arg m ρ c main_arg5 (by decide) (by decide) (by decide) (by decide) (by decide)

end Cert.KernelIdeal.Bridge

end
-- ==== Proof.Ideal.BridgeB.lean ====
/- The bridge, second part: the first transform's array is the reference's first product, and the second region finds the
   reference's first aggregation and the same scalings. -/
import proofs.«146874_j75788992905450_1_alg».proof.Proof.Ideal.BridgeA
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Bridge

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat)

open Cert.KernelIdeal.Pool

variable (m : (ℓ : Loc nD τ sig) → Buf (Elt Ideal) ℓ) (ρ : Dev nD → PrngReg) (c : Dev nD)

/-! ## The first transform's array, and what the second region finds -/

/-- The first transform leaves the reference's first product. -/
theorem w6_h1 : W6 m ρ c (Proc.devRef .tc main_v17) = Cert.ReferenceIdeal.Read.val_main_v16 (F := Ideal) (m ((c.tc : Thread nD τ).loc main_arg0)) (m ((c.tc : Thread nD τ).loc main_arg1)) (m ((c.tc : Thread nD τ).loc main_arg3)) := by
  refine (W6_arr m ρ c 3).trans ?_
  rw [final0 (E5 m ρ) Cert.ReferenceIdeal.dot_S100000x128_S128x128_S100000x128_1_0_0_1_n_n Cert.ReferenceIdeal.Facts₀.bcast_S100000x1_S100000x128_0_1 plainR1 c,
    e5_csrc, e5_x0, e5_x3]
  rfl

/-- A buffer that is no array of the first region and that the first aggregation's stretch does not write is, when the second
    region is entered, what the first region found. -/
theorem w7_of_w5 (r : Ref sig .tc) (hne : ∀ w, Pipeline.arrRef spec0 w ≠ r) (hk : r ∉ hostOps1_W) :
    W7 m ρ c r = W5 m ρ c r :=
  (W7_keep m ρ c r hk).trans (W6_of_ne m ρ c r hne)

/-- An input array of the first region is unchanged by it. -/
theorem w6_v10 : W6 m ρ c (Proc.devRef .tc main_v10) = W5 m ρ c (Proc.devRef .tc main_v10) :=
  (W6_arr m ρ c 1).trans (((dat0 (E5 m ρ) c).arrAt_in 1 rfl _).trans (A_eq0 (E5 m ρ) c 1))

theorem e7_csrc : E7 m ρ c main_v10 = Cert.ReferenceIdeal.Read.val_main_v34 (F := Ideal) (m ((c.tc : Thread nD τ).loc main_arg1)) :=
  ((W7_keep m ρ c main_v10 (by decide)).trans (w6_v10 m ρ c)).trans (e5_csrc m ρ c)
theorem e7_cdst : E7 m ρ c main_v14 = Cert.ReferenceIdeal.Read.val_main_v27 (F := Ideal) (m ((c.tc : Thread nD τ).loc main_arg2)) :=
  (w7_of_w5 m ρ c main_v14 (by decide) (by decide)).trans (e5_cdst m ρ c)
theorem e7_b1 : E7 m ρ c main_v15 = Cert.ReferenceIdeal.Read.val_main_v30 (F := Ideal) (m ((c.tc : Thread nD τ).loc main_arg4)) :=
  (w7_of_w5 m ρ c main_v15 (by decide) (by decide)).trans (e5_b1 m ρ c)
theorem e7_x5 : E7 m ρ c main_arg5 = (m ((c.tc : Thread nD τ).loc main_arg5)) :=
  (w7_of_w5 m ρ c main_arg5 (by decide) (by decide)).trans (w5_x5 m ρ c)
theorem w6_x1 : W6 m ρ c (Proc.devRef .tc main_arg1) = (m ((c.tc : Thread nD τ).loc main_arg1)) := (W6_of_ne m ρ c main_arg1 (by decide)).trans (w5_x1 m ρ c)
theorem w6_x2 : W6 m ρ c (Proc.devRef .tc main_arg2) = (m ((c.tc : Thread nD τ).loc main_arg2)) := (W6_of_ne m ρ c main_arg2 (by decide)).trans (w5_x2 m ρ c)

/-- The first aggregation over the edges is the reference's. -/
theorem e7_m1 : E7 m ρ c main_v27 = Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg3)) := by
  show W7 m ρ c (Proc.devRef .tc main_v27) = _
  dsimp only [W7, hostOps1]
  after_results
  rw [w6_h1, w6_x1, w6_x2]
  rfl

end Cert.KernelIdeal.Bridge

end
-- ==== Proof.Ideal.Bridge.lean ====
/- The bridge. The kernel program and the reference compute the same stages in the same order: the two degree scalings,
   the first dense transform, the first aggregation over the edges, the rectified affine map and the second dense
   transform, the second aggregation, the affine map and the mean. The host stretches of the kernel program are the
   reference's operations line for line (the same gather and scatter records), except that a vector is recast as a column
   or a row where the reference spreads it, which reads the same entries; the three regions are the host-style stages by
   the three whole-array lemmas. So each buffer a region finds on entry, and each array it leaves, is the reference's
   stage of the same name, and the result array is the reference's result as a function of the seven arguments. -/
import proofs.«146874_j75788992905450_1_alg».proof.Proof.Ideal.BridgeB
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Bridge

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat)

open Cert.KernelIdeal.Pool

variable (m : (ℓ : Loc nD τ sig) → Buf (Elt Ideal) ℓ) (ρ : Dev nD → PrngReg) (c : Dev nD)

/-! ## The fused transform's array, and what the pooling region finds -/

theorem w8_h2 : W8 m ρ c (Proc.devRef .tc main_v28) = Cert.ReferenceIdeal.Read.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 5).trans ?_
  rw [final1 (E7 m ρ) Cert.ReferenceIdeal.dot_S100000x128_S128x64_S100000x64_1_0_0_1_n_n Cert.ReferenceIdeal.Facts₀.bcast_S100000x1_S100000x128_0_1
      Cert.ReferenceIdeal.Facts₀.bcast_S1x128_S100000x128_0_1 Cert.ReferenceIdeal.Facts₀.bcast_S_S100000x128 plainR2 c,
    e7_m1, e7_cdst, e7_b1, e7_csrc, e7_x5]
  rfl

/-- An input array of the second region is unchanged by it. -/
theorem w8_v14 : W8 m ρ c (Proc.devRef .tc main_v14) = W7 m ρ c (Proc.devRef .tc main_v14) :=
  (W8_arr m ρ c 1).trans (((dat1 (E7 m ρ) c).arrAt_in 1 rfl _).trans (A_eq1 (E7 m ρ) c 1))

theorem e9_cdst : E9 m ρ c main_v14 = Cert.ReferenceIdeal.Read.val_main_v48 (F := Ideal) (m ((c.tc : Thread nD τ).loc main_arg2)) :=
  ((W9_keep m ρ c main_v14 (by decide)).trans (w8_v14 m ρ c)).trans (e7_cdst m ρ c)
theorem e9_b2 : E9 m ρ c main_v16 = Cert.ReferenceIdeal.Read.val_main_v51 (F := Ideal) (m ((c.tc : Thread nD τ).loc main_arg6)) :=
  ((W9_keep m ρ c main_v16 (by decide)).trans <| (W8_of_ne m ρ c main_v16 (by decide)).trans <|
    (w7_of_w5 m ρ c main_v16 (by decide) (by decide))).trans (e5_b2 m ρ c)
theorem w8_x1 : W8 m ρ c (Proc.devRef .tc main_arg1) = (m ((c.tc : Thread nD τ).loc main_arg1)) :=
  (W8_of_ne m ρ c main_arg1 (by decide)).trans <| (W7_keep m ρ c main_arg1 (by decide)).trans (w6_x1 m ρ c)
theorem w8_x2 : W8 m ρ c (Proc.devRef .tc main_arg2) = (m ((c.tc : Thread nD τ).loc main_arg2)) :=
  (W8_of_ne m ρ c main_arg2 (by decide)).trans <| (W7_keep m ρ c main_arg2 (by decide)).trans (w6_x2 m ρ c)

set_option maxHeartbeats 1000000 in
/-- The second aggregation over the edges is the reference's. -/
theorem e9_m2 : E9 m ρ c main_v38 = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show W9 m ρ c (Proc.devRef .tc main_v38) = _
  dsimp only [W9, hostOps2]
  after_results
  rw [w8_h2, w8_x1, w8_x2]
  rfl

/-! ## The result -/

/-- THE RESULT ARRAY of the kernel program is the reference's result as a function of the seven arguments. -/
theorem result : (dat2 (E9 m ρ) c).arrAt 3 cfg2.N = Cert.ReferenceIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [final2 (E9 m ρ) Cert.ReferenceIdeal.Facts₀.reducesTo_S100000x64_S64_d0 Cert.ReferenceIdeal.Facts₀.h_S_ Cert.ReferenceIdeal.Facts₀.bcast_S64_S1x64_1 Cert.ReferenceIdeal.Facts₀.bcast_S_S1x64
      Cert.ReferenceIdeal.Facts₀.bcast_S100000x1_S100000x64_0_1 Cert.ReferenceIdeal.Facts₀.bcast_S1x64_S100000x64_0_1 c,
    e9_m2, e9_cdst, e9_b2]
  rfl

end Cert.KernelIdeal.Bridge

end
-- ==== Proof.lean ====
/- The certificate of a two-layer graph convolution with mean pooling against its array-level reference.

   The kernel program computes, in three tiled regions among stretches of host operations: the first dense transform of
   the source-scaled features; after an aggregation over the edges, the rectified affine map fused with the second dense
   transform; after a second aggregation, the affine map summed over all nodes and scaled by the reciprocal of the node
   count. The reference computes the same stages on whole arrays and divides the last sum by the node count.

   Frames: each program terminates without fault and leaves its seven argument arrays as launched. For the kernel program,
   at the word level and on the extended reals alike, this is the run of its ten items over the buffers' contents folded
   from the launch memory (Proof/Bits/Run.lean, Proof/Ideal/Run.lean); the pooling region's invariant carries its running
   row of column sums from one grid point to the next. For the reference it is its run with the result dropped.

   The idealization names one constant: the reciprocal 1/100000, which the kernel spells as the nearest single-precision
   number; the statement of that rule is the one conjunct of preserves.

   Equality on the extended reals: narrowing to sixteen bits is the identity; a tile's product into a zero accumulator and
   the host's product are the same finite sum; the 20 tiles of 5000 rows tile the 100000 rows; the running row regroups one
   sum over all rows tile by tile, which commutativity and associativity of addition allow on the extended reals with no
   finiteness assumption; and division by 100000 is multiplication by the named 1/100000 on every extended real. The
   host operations between the regions are the reference's own, so each array is the reference's stage of the same name
   (Proof/Ideal/Bridge.lean). The precondition is never opened. -/
import proofs.«146874_j75788992905450_1_alg».proof.Defs
import proofs.«146874_j75788992905450_1_alg».proof.Proof.Bits.Run
import proofs.«146874_j75788992905450_1_alg».proof.Proof.Ideal.Bridge
import proofs.«146874_j75788992905450_1_alg».proof.Proof.Gen.Kernel
import proofs.«146874_j75788992905450_1_alg».proof.Proof.Gen.KernelIdeal
import proofs.«146874_j75788992905450_1_alg».proof.Proof.Gen.ReferenceIdeal
import proofs.«146874_j75788992905450_1_alg».proof.Proof.Gen.ReferenceIdeal.Read
import proofs.«146874_j75788992905450_1_alg».proof.Proof.Gen.Pre_finite_inputs
import Idealize.ShloMosaic.Adequacy
import Idealize.ShloMosaic.Init

noncomputable section

namespace Cert.Proof

open Idealize.ShloMosaic Idealize.SL.Sem

/-- The kernel program, at the word level, runs and leaves its arguments as launched. -/
theorem frame_k : Cert.frame_Kernel := fun m ρ _ => Cert.Kernel.Tiles.frame m ρ

/-- The same on the extended reals. -/
theorem frame_ki : Cert.frame_KernelIdeal := fun m ρ _ => Cert.KernelIdeal.Tiles.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the named reciprocal of the node count is the rational 1/100000. -/
theorem preserves : Cert.preserves_Kernel_KernelIdeal :=
  IdealRules.named_const.statement Cert.KernelIdeal.κ "inv_100000" .f32 0x3727C5AC#32 ((1 / 100000 : ℝ) : EReal) rfl

/-- On the extended reals, from memories that agree on the arguments, both programs end with the same result: the kernel
    program's result array is the reference's result as a function of the seven arguments. -/
theorem algebraic : Cert.algebraic_KernelIdeal_ReferenceIdeal := by
  intro m ρ m' ρ' _ hagree
  refine ⟨fun c => (Cert.KernelIdeal.Tiles.dat2 (Cert.KernelIdeal.Tiles.E9 m ρ) c).arrAt 3 Cert.KernelIdeal.cfg2.N,
    Cert.KernelIdeal.Tiles.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2.1, (hagree c).2.2.2.1,
    (hagree c).2.2.2.2.1, (hagree c).2.2.2.2.2.1, (hagree c).2.2.2.2.2.2]
  exact (Cert.KernelIdeal.Bridge.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
